-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x256 : Shape := ⟨4, ![4, 64, 64, 256]⟩
abbrev S256x32 : Shape := ⟨2, ![256, 32]⟩
abbrev S32 : Shape := ⟨1, ![32]⟩
abbrev S256x256 : Shape := ⟨2, ![256, 256]⟩
abbrev S256 : Shape := ⟨1, ![256]⟩
abbrev S_ : Shape := ⟨0, ![]⟩

class Facts : Prop where
  bcast_S_S4x64x64x256 : S_.BroadcastsInDim S4x64x64x256 (![] : Fin 0 → Fin S4x64x64x256.rank)
  reducesTo_S4x64x64x256_S_d0_1_2_3 : S4x64x64x256.ReducesTo [0, 1, 2, 3] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256x256 .f32) (main_arg8 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S32 .f32) (main_arg5 : FVec F S256x256 .f32) (main_arg6 : FVec F S256 .f32) (main_arg7 : FVec F S256x256 .f32) (main_arg8 : FVec F S256 .f32) (main_v13 : IVec S_ 1) (main_v16 : IVec S256x32 1) : IVec S_ 1 :=
  let main_c_5 : IVec S_ 1 := constantI S_ 1 1#1
  let main_v17 : IVec S_ 1 := (fun x v => Host.reduce IntOp.andi x v reducesTo_S256x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S4x64x64x256 .f32) (main_arg1 : FVec F S256x32 .f32) (main_arg2 : FVec F S32 .f32) (main_arg3 : FVec F S256x32 .f32) (main_arg4 : FVec F S32 .f32) (main_arg5 : FVec F S256x256 .f32) (main_arg6 : FVec F S256 .f32) (main_arg7 : FVec F S256x256 .f32) (main_arg8 : FVec F S256 .f32) : IVec S_ 1 :=
  let main_v0 : FVec F S4x64x64x256 .f32 := Host.absf main_arg0
  let main_cst : FVec F S_ .f32 := constant S_ .f32 0x7F800000#32
  let main_v1 : FVec F S4x64x64x256 .f32 := broadcastInDim S4x64x64x256 ![] bcast_S_S4x64x64x256 main_cst
  let main_v2 : IVec S4x64x64x256 1 := cmpf .olt main_v0 main_v1
  let main_c : IVec S_ 1 := constantI S_ 1 1#1
  let main_v3 : IVec S_ 1 := (fun x v => Host.reduce IntOp.andi x v reducesTo_S4x64x64x256_S_d0_1_2_3 h_S_) main_v2 main_c
  let main_v4 : FVec F S256x32 .f32 := Host.absf main_arg1
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S256x32 .f32 := Host.absf main_arg3
  let main_cst_4 : FVec F S_ .f32 := constant S_ .f32 0x7F800000#32
  let main_v15 : FVec F S256x32 .f32 := broadcastInDim S256x32 ![] bcast_S_S256x32 main_cst_4
  let main_v16 : IVec S256x32 1 := cmpf .olt main_v14 main_v15
  fn_part1 (F := F) main_arg4 main_arg5 main_arg6 main_arg7 main_arg8 main_v13 main_v16
-- ==== Kernel.lean ====
abbrev S4x64x64x256 : Shape := ⟨4, ![4, 64, 64, 256]⟩
abbrev S256x32 : Shape := ⟨2, ![256, 32]⟩
abbrev S32 : Shape := ⟨1, ![32]⟩
abbrev S256x256 : Shape := ⟨2, ![256, 256]⟩
abbrev S256 : Shape := ⟨1, ![256]⟩
abbrev S4x4096x256 : Shape := ⟨3, ![4, 4096, 256]⟩
abbrev S4x32x4096 : Shape := ⟨3, ![4, 32, 4096]⟩
abbrev S4x4096x32 : Shape := ⟨3, ![4, 4096, 32]⟩
abbrev S1x1024x256 : Shape := ⟨3, ![1, 1024, 256]⟩
abbrev S1x32x1024 : Shape := ⟨3, ![1, 32, 1024]⟩
abbrev S1x1024x32 : Shape := ⟨3, ![1, 1024, 32]⟩
abbrev S1024x256 : Shape := ⟨2, ![1024, 256]⟩
abbrev S1024x32 : Shape := ⟨2, ![1024, 32]⟩
abbrev S1x32 : Shape := ⟨2, ![1, 32]⟩
abbrev S1x256 : Shape := ⟨2, ![1, 256]⟩
abbrev S32x1024 : Shape := ⟨2, ![32, 1024]⟩
abbrev S1x512x32 : Shape := ⟨3, ![1, 512, 32]⟩
abbrev S1x32x4096 : Shape := ⟨3, ![1, 32, 4096]⟩
abbrev S1x4096x256 : Shape := ⟨3, ![1, 4096, 256]⟩
abbrev S1x512x256 : Shape := ⟨3, ![1, 512, 256]⟩
abbrev S512x32 : Shape := ⟨2, ![512, 32]⟩
abbrev S32x4096 : Shape := ⟨2, ![32, 4096]⟩
abbrev S4096x256 : Shape := ⟨2, ![4096, 256]⟩
abbrev S512x4096 : Shape := ⟨2, ![512, 4096]⟩
abbrev S512 : Shape := ⟨1, ![512]⟩
abbrev S512x1 : Shape := ⟨2, ![512, 1]⟩
abbrev S512x256 : Shape := ⟨2, ![512, 256]⟩

abbrev nBuf : Space → Nat
  | .hbm => 15
  | .vmem => 24
  | .smem => 0
  | _ => 0

abbrev bufTy : (tb : Table) → Fin (tcTables nBuf tb) → BufTy
  | .hbm, ⟨0, _⟩ => ⟨S4x64x64x256, .f32⟩
  | .hbm, ⟨1, _⟩ => ⟨S256x32, .f32⟩
  | .hbm, ⟨2, _⟩ => ⟨S32, .f32⟩
  | .hbm, ⟨3, _⟩ => ⟨S256x32, .f32⟩
  | .hbm, ⟨4, _⟩ => ⟨S32, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S4x4096x256, .f32⟩
  | .hbm, ⟨10, _⟩ => ⟨S4x32x4096, .f32⟩
  | .hbm, ⟨11, _⟩ => ⟨S4x4096x32, .f32⟩
  | .hbm, ⟨12, _⟩ => ⟨S4x4096x256, .bf16⟩
  | .hbm, ⟨13, _⟩ => ⟨S4x4096x256, .f32⟩
  | .hbm, ⟨14, _⟩ => ⟨S4x64x64x256, .f32⟩
  | .local _ .vmem, ⟨0, _⟩ => ⟨S1x1024x256, .f32⟩
  | .local _ .vmem, ⟨1, _⟩ => ⟨S1x1024x256, .f32⟩
  | .local _ .vmem, ⟨2, _⟩ => ⟨S256x32, .f32⟩
  | .local _ .vmem, ⟨3, _⟩ => ⟨S32, .f32⟩
  | .local _ .vmem, ⟨4, _⟩ => ⟨S256x32, .f32⟩
  | .local _ .vmem, ⟨5, _⟩ => ⟨S32, .f32⟩
  | .local _ .vmem, ⟨6, _⟩ => ⟨S256x256, .f32⟩
  | .local _ .vmem, ⟨7, _⟩ => ⟨S256, .f32⟩
  | .local _ .vmem, ⟨8, _⟩ => ⟨S1x32x1024, .f32⟩
  | .local _ .vmem, ⟨9, _⟩ => ⟨S1x32x1024, .f32⟩
  | .local _ .vmem, ⟨10, _⟩ => ⟨S1x1024x32, .f32⟩
  | .local _ .vmem, ⟨11, _⟩ => ⟨S1x1024x32, .f32⟩
  | .local _ .vmem, ⟨12, _⟩ => ⟨S1x1024x256, .bf16⟩
  | .local _ .vmem, ⟨13, _⟩ => ⟨S1x1024x256, .bf16⟩
  | .local _ .vmem, ⟨14, _⟩ => ⟨S1x512x32, .f32⟩
  | .local _ .vmem, ⟨15, _⟩ => ⟨S1x512x32, .f32⟩
  | .local _ .vmem, ⟨16, _⟩ => ⟨S1x32x4096, .f32⟩
  | .local _ .vmem, ⟨17, _⟩ => ⟨S1x4096x256, .bf16⟩
  | .local _ .vmem, ⟨18, _⟩ => ⟨S1x512x256, .f32⟩
  | .local _ .vmem, ⟨19, _⟩ => ⟨S1x512x256, .f32⟩
  | .local _ .vmem, ⟨20, _⟩ => ⟨S256x256, .f32⟩
  | .local _ .vmem, ⟨21, _⟩ => ⟨S256, .f32⟩
  | .local _ .vmem, ⟨22, _⟩ => ⟨S1x512x256, .f32⟩
  | .local _ .vmem, ⟨23, _⟩ => ⟨S1x512x256, .f32⟩
  | _, _ => ⟨S4x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x32x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x4096x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 2 → Memref sig .tc .vmem S1x512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S4x64x64x256_S4x4096x256 : S4x64x64x256.ShapeCasts S4x4096x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S256x32_S256x32_0_0 : ∀ a, (![0, 0] : Fin 2 → Nat) a + S256x32.size a ≤ S256x32.size a
  h_S256x32 : 0 < S256x32.numel
  inb_S32_S32_0 : ∀ a, (![0] : Fin 1 → Nat) a + S32.size a ≤ S32.size a
  h_S32 : 0 < S32.numel
  shapeCasts_S32_S1x32 : S32.ShapeCasts S1x32
  broadcasts_S1x32_S1024x32 : S1x32.Broadcasts S1024x32
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  transposes_S1024x32_p1_0_S32x1024 : S1024x32.Transposes [1, 0] S32x1024
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  shapeCasts_S32x1024_S1x32x1024 : S32x1024.ShapeCasts S1x32x1024
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  shapeCasts_S1024x32_S1x1024x32 : S1024x32.ShapeCasts S1x1024x32
  shapeCasts_S1024x256_S1x1024x256 : S1024x256.ShapeCasts S1x1024x256
  packedbf16_S1x1024x256_S1x1024x256_0_0_0 : (Rect.unit (s := S1x1024x256) ![0, 0, 0] S1x1024x256.size inb_S1x1024x256_S1x1024x256_0_0_0).PackedRows (EltTy.packing .bf16)
  inb_S1x512x32_S1x512x32_0_0_0 : ∀ a, (![0, 0, 0] : Fin 3 → Nat) a + S1x512x32.size a ≤ S1x512x32.size a
  h_S1x512x32 : 0 < S1x512x32.numel
  shapeCasts_S1x512x32_S512x32 : S1x512x32.ShapeCasts S512x32
  inb_S1x32x4096_S1x32x4096_0_0_0 : ∀ a, (![0, 0, 0] : Fin 3 → Nat) a + S1x32x4096.size a ≤ S1x32x4096.size a
  h_S1x32x4096 : 0 < S1x32x4096.numel
  shapeCasts_S1x32x4096_S32x4096 : S1x32x4096.ShapeCasts S32x4096
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  reduces_S512x4096_S512 : S512x4096.Reduces [1] S512
  shapeCasts_S512_S512x1 : S512.ShapeCasts S512x1
  broadcasts_S512x1_S512x4096 : S512x1.Broadcasts S512x4096
  broadcasts_S512x1_S512x256 : S512x1.Broadcasts S512x256
  broadcasts_S1x256_S512x256 : S1x256.Broadcasts S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  shapeCasts_S4x4096x256_S4x64x64x256 : S4x4096x256.ShapeCasts S4x64x64x256
  dot_S1024x256_S256x32_S1024x32_1_0_0_1_n_n_wf : DotDims.WF S1024x256 S256x32 S1024x32 [1] [0] [0] [1] [] []
  dot_S1024x256_S256x256_S1024x256_1_0_0_1_n_n_wf : DotDims.WF S1024x256 S256x256 S1024x256 [1] [0] [0] [1] [] []
  dot_S512x32_S32x4096_S512x4096_1_0_0_1_n_n_wf : DotDims.WF S512x32 S32x4096 S512x4096 [1] [0] [0] [1] [] []
  dot_S512x4096_S4096x256_S512x256_1_0_0_1_n_n_wf : DotDims.WF S512x4096 S4096x256 S512x256 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S4x4096x256.size a
  hwx0_0 : ∀ i : grid0.Coords, EltTy.bits .f32 = 32 ∨ (Rect.block (s := S4x4096x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S256x32.size a
  hwx0_3 : ∀ i : grid0.Coords, EltTy.bits .f32 = 32 ∨ (Rect.block (s := S256x32) S256x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x1024.size a ≤ S4x32x4096.size a
  hwx0_7 : ∀ i : grid0.Coords, EltTy.bits .f32 = 32 ∨ (Rect.block (s := S4x32x4096) S1x32x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x32.size a ≤ S4x4096x32.size a
  hwx0_8 : ∀ i : grid0.Coords, EltTy.bits .f32 = 32 ∨ (Rect.block (s := S4x4096x32) S1x1024x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x256.size a ≤ S4x4096x256.size a
  hwx0_9 : ∀ i : grid0.Coords, EltTy.bits .bf16 = 32 ∨ (Rect.block (s := S4x4096x256) S1x1024x256.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x32.size a ≤ S4x4096x32.size a
  hwx1_0 : ∀ i : grid1.Coords, EltTy.bits .f32 = 32 ∨ (Rect.block (s := S4x4096x32) S1x512x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32x4096.size a ≤ S4x32x4096.size a
  hwx1_1 : ∀ i : grid1.Coords, EltTy.bits .f32 = 32 ∨ (Rect.block (s := S4x32x4096) S1x32x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096x256.size a ≤ S4x4096x256.size a
  hwx1_2 : ∀ i : grid1.Coords, EltTy.bits .bf16 = 32 ∨ (Rect.block (s := S4x4096x256) S1x4096x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x256.size a ≤ S4x4096x256.size a
  hwx1_3 : ∀ i : grid1.Coords, EltTy.bits .f32 = 32 ∨ (Rect.block (s := S4x4096x256) S1x512x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x256.size a ≤ S4x4096x256.size a
  hwx1_6 : ∀ i : grid1.Coords, EltTy.bits .f32 = 32 ∨ (Rect.block (s := S4x4096x256) S1x512x256.size (cc1_transform_6 i) (hinb1_6 i)).WholeWords (EltTy.packing .f32)

variable [Facts₀]

def dot_S1024x256_S256x32_S1024x32_1_0_0_1_n_n : DotDims S1024x256 S256x32 S1024x32 where
  lhsContracting := [1]
  rhsContracting := [0]
  lhsNonContracting := [0]
  rhsNonContracting := [1]
  lhsBatch := []
  rhsBatch := []
  wf := dot_S1024x256_S256x32_S1024x32_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S512x32_S32x4096_S512x4096_1_0_0_1_n_n : DotDims S512x32 S32x4096 S512x4096 where
  lhsContracting := [1]
  rhsContracting := [0]
  lhsNonContracting := [0]
  rhsNonContracting := [1]
  lhsBatch := []
  rhsBatch := []
  wf := dot_S512x32_S32x4096_S512x4096_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_v0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1_0) S1x32x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1_1) S1x1024x32.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1_2) S1x1024x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v1_1) S1x512x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S1x32x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_2) S1x4096x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x512x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S1x512x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4x64x64x256 : Shape := ⟨4, ![4, 64, 64, 256]⟩
abbrev S256x32 : Shape := ⟨2, ![256, 32]⟩
abbrev S32 : Shape := ⟨1, ![32]⟩
abbrev S256x256 : Shape := ⟨2, ![256, 256]⟩
abbrev S256 : Shape := ⟨1, ![256]⟩
abbrev S4x64x64x32 : Shape := ⟨4, ![4, 64, 64, 32]⟩
abbrev S1x1x1x32 : Shape := ⟨4, ![1, 1, 1, 32]⟩
abbrev S4x4096x32 : Shape := ⟨3, ![4, 4096, 32]⟩
abbrev S1x1x1x256 : Shape := ⟨4, ![1, 1, 1, 256]⟩
abbrev S4x4096x256 : Shape := ⟨3, ![4, 4096, 256]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 46
  | .vmem => 0
  | .smem => 0
  | _ => 0

abbrev bufTy : (tb : Table) → Fin (tcTables nBuf tb) → BufTy
  | .hbm, ⟨0, _⟩ => ⟨S4x64x64x256, .f32⟩
  | .hbm, ⟨1, _⟩ => ⟨S256x32, .f32⟩
  | .hbm, ⟨2, _⟩ => ⟨S32, .f32⟩
  | .hbm, ⟨3, _⟩ => ⟨S256x32, .f32⟩
  | .hbm, ⟨4, _⟩ => ⟨S32, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S4x64x64x32, .f32⟩
  | .hbm, ⟨10, _⟩ => ⟨S1x1x1x32, .f32⟩
  | .hbm, ⟨11, _⟩ => ⟨S4x64x64x32, .f32⟩
  | .hbm, ⟨12, _⟩ => ⟨S4x64x64x32, .f32⟩
  | .hbm, ⟨13, _⟩ => ⟨S4x4096x32, .f32⟩
  | .hbm, ⟨14, _⟩ => ⟨S4x64x64x32, .f32⟩
  | .hbm, ⟨15, _⟩ => ⟨S1x1x1x32, .f32⟩
  | .hbm, ⟨16, _⟩ => ⟨S4x64x64x32, .f32⟩
  | .hbm, ⟨17, _⟩ => ⟨S4x64x64x32, .f32⟩
  | .hbm, ⟨18, _⟩ => ⟨S4x4096x32, .f32⟩
  | .hbm, ⟨19, _⟩ => ⟨S4x64x64x256, .f32⟩
  | .hbm, ⟨20, _⟩ => ⟨S1x1x1x256, .f32⟩
  | .hbm, ⟨21, _⟩ => ⟨S4x64x64x256, .f32⟩
  | .hbm, ⟨22, _⟩ => ⟨S4x64x64x256, .f32⟩
  | .hbm, ⟨23, _⟩ => ⟨S4x4096x256, .f32⟩
  | .hbm, ⟨24, _⟩ => ⟨S4x4096x4096, .f32⟩
  | .hbm, ⟨25, _⟩ => ⟨S_, .f32⟩
  | .hbm, ⟨26, _⟩ => ⟨S4x4096, .f32⟩
  | .hbm, ⟨27, _⟩ => ⟨S_, .f32⟩
  | .hbm, ⟨28, _⟩ => ⟨S4x4096, .f32⟩
  | .hbm, ⟨29, _⟩ => ⟨S4x4096, .f32⟩
  | .hbm, ⟨30, _⟩ => ⟨S4x4096x1, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S_, .f32⟩
  | .hbm, ⟨35, _⟩ => ⟨S4x4096, .f32⟩
  | .hbm, ⟨36, _⟩ => ⟨S4x4096x1, .f32⟩
  | .hbm, ⟨37, _⟩ => ⟨S4x4096x4096, .f32⟩
  | .hbm, ⟨38, _⟩ => ⟨S4x4096x4096, .f32⟩
  | .hbm, ⟨39, _⟩ => ⟨S4x4096x256, .f32⟩
  | .hbm, ⟨40, _⟩ => ⟨S4x64x64x256, .f32⟩
  | .hbm, ⟨41, _⟩ => ⟨S4x64x64x256, .f32⟩
  | .hbm, ⟨42, _⟩ => ⟨S1x1x1x256, .f32⟩
  | .hbm, ⟨43, _⟩ => ⟨S4x64x64x256, .f32⟩
  | .hbm, ⟨44, _⟩ => ⟨S4x64x64x256, .f32⟩
  | .hbm, ⟨45, _⟩ => ⟨S4x64x64x256, .f32⟩
  | _, _ => ⟨S4x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  bcast_S32_S1x1x1x32_3 : S32.BroadcastsInDim S1x1x1x32 (![3] : Fin 1 → Fin S1x1x1x32.rank)
  bcast_S1x1x1x32_S4x64x64x32_0_1_2_3 : S1x1x1x32.BroadcastsInDim S4x64x64x32 (![0, 1, 2, 3] : Fin 4 → Fin S4x64x64x32.rank)
  shapeCasts_S4x64x64x32_S4x4096x32 : S4x64x64x32.ShapeCasts S4x4096x32
  bcast_S256_S1x1x1x256_3 : S256.BroadcastsInDim S1x1x1x256 (![3] : Fin 1 → Fin S1x1x1x256.rank)
  bcast_S1x1x1x256_S4x64x64x256_0_1_2_3 : S1x1x1x256.BroadcastsInDim S4x64x64x256 (![0, 1, 2, 3] : Fin 4 → Fin S4x64x64x256.rank)
  shapeCasts_S4x64x64x256_S4x4096x256 : S4x64x64x256.ShapeCasts S4x4096x256
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  shapeCasts_S4x4096x256_S4x64x64x256 : S4x4096x256.ShapeCasts S4x64x64x256
  dot_S4x64x64x256_S256x32_S4x64x64x32_3_0_012_1_n_n_wf : DotDims.WF S4x64x64x256 S256x32 S4x64x64x32 [3] [0] [0, 1, 2] [1] [] []
  dot_S4x64x64x256_S256x256_S4x64x64x256_3_0_012_1_n_n_wf : DotDims.WF S4x64x64x256 S256x256 S4x64x64x256 [3] [0] [0, 1, 2] [1] [] []
  dot_S4x4096x32_S4x4096x32_S4x4096x4096_2_2_1_1_0_0_wf : DotDims.WF S4x4096x32 S4x4096x32 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x64x64x256_S256x32_S4x64x64x32_3_0_012_1_n_n : DotDims S4x64x64x256 S256x32 S4x64x64x32 where
  lhsContracting := [3]
  rhsContracting := [0]
  lhsNonContracting := [0, 1, 2]
  rhsNonContracting := [1]
  lhsBatch := []
  rhsBatch := []
  wf := dot_S4x64x64x256_S256x32_S4x64x64x32_3_0_012_1_n_n_wf
def dot_S4x64x64x256_S256x256_S4x64x64x256_3_0_012_1_n_n : DotDims S4x64x64x256 S256x256 S4x64x64x256 where
  lhsContracting := [3]
  rhsContracting := [0]
  lhsNonContracting := [0, 1, 2]
  rhsNonContracting := [1]
  lhsBatch := []
  rhsBatch := []
  wf := dot_S4x64x64x256_S256x256_S4x64x64x256_3_0_012_1_n_n_wf
def dot_S4x4096x32_S4x4096x32_S4x4096x4096_2_2_1_1_0_0 : DotDims S4x4096x32 S4x4096x32 S4x4096x4096 where
  lhsContracting := [2]
  rhsContracting := [2]
  lhsNonContracting := [1]
  rhsNonContracting := [1]
  lhsBatch := [0]
  rhsBatch := [0]
  wf := dot_S4x4096x32_S4x4096x32_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.AttnSpec.lean ====
/-
  Self-attention over the pixels of an image batch, written once over coordinates.

  An image batch `X` has 4 images of 64 × 64 pixels with 256 channels; pixel `n` (of 4096) of image `b` sits at
  row `n / 64`, column `n % 64`.  Three per-pixel linear maps give the keys `f` (32 wide), the queries `g`
  (32 wide) and the values `h` (256 wide).  The score of pixel `n` against pixel `m` is `⟨g n, f m⟩`, the weight
  `exp (score − row maximum)`, and the mixed value at `n` the weighted mean of the values:
    * normalising every weight by the row sum before the mix (`mixNormalized`), or
    * mixing with the raw weights and dividing the mix by the row sum once (`mixDeferred`).
  The result adds a last linear map of the mix to the pixel itself.  All values are extended reals.
  The two mixes agree when the row sum is a positive real (`mix_eq`), which finite keys and queries give
  (`rowSum_pos_real`): a nonnegative real factor distributes over any sum of extended reals.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

abbrev Img := (⟨4, ![4, 64, 64, 256]⟩ : Shape).Idx → EReal
abbrev MatK := (⟨2, ![256, 32]⟩ : Shape).Idx → EReal
abbrev VecK := (⟨1, ![32]⟩ : Shape).Idx → EReal
abbrev MatC := (⟨2, ![256, 256]⟩ : Shape).Idx → EReal
abbrev VecC := (⟨1, ![256]⟩ : Shape).Idx → EReal

/-- The nine argument arrays. -/
structure Args where
  X : Img
  Wf : MatK
  bf : VecK
  Wg : MatK
  bg : VecK
  Wh : MatC
  bh : VecC
  Wv : MatC
  bv : VecC

/-- Every entry of an array is a real number. -/
def IsReal {ι : Type} (x : ι → EReal) : Prop := ∀ i, ∃ r : ℝ, x i = (r : EReal)

/-- Row and column of pixel `n`. -/
def prow (n : Fin 4096) : Fin 64 := ⟨n.val / 64, by have := n.isLt; omega⟩
def pcol (n : Fin 4096) : Fin 64 := ⟨n.val % 64, by omega⟩
/-- The pixel at row `h`, column `w`. -/
def pixOf (h w : Fin 64) : Fin 4096 := ⟨h.val * 64 + w.val, by have := h.isLt; have := w.isLt; omega⟩

theorem prow_pixOf (h w : Fin 64) : prow (pixOf h w) = h := Fin.ext (by have := w.isLt; simp only [prow, pixOf]; omega)
theorem pcol_pixOf (h w : Fin 64) : pcol (pixOf h w) = w := Fin.ext (by have := w.isLt; simp only [pcol, pixOf]; omega)

/-- Channel `c` of pixel `n` of image `b`. -/
def pix (X : Img) (b : Fin 4) (n : Fin 4096) (c : Fin 256) : EReal := X (ix4 b (prow n) (pcol n) c)

/-- A per-pixel linear map: `∑ c, pixel c · W c k + β k`. -/
def proj {K : Nat} (X : Img) (W : (⟨2, ![256, K]⟩ : Shape).Idx → EReal) (β : (⟨1, ![K]⟩ : Shape).Idx → EReal)
    (b : Fin 4) (n : Fin 4096) (k : Fin K) : EReal :=
  (∑ c : Fin 256, pix X b n c * W (ix2 c k)) + β (ix1 k)

def key (A : Args) (b : Fin 4) (m : Fin 4096) (k : Fin 32) : EReal := proj A.X A.Wf A.bf b m k
def query (A : Args) (b : Fin 4) (n : Fin 4096) (k : Fin 32) : EReal := proj A.X A.Wg A.bg b n k
def value (A : Args) (b : Fin 4) (m : Fin 4096) (d : Fin 256) : EReal := proj A.X A.Wh A.bh b m d

def score (A : Args) (b : Fin 4) (n m : Fin 4096) : EReal := ∑ k : Fin 32, query A b n k * key A b m k
def rowMax (A : Args) (b : Fin 4) (n : Fin 4096) : EReal :=
  (Finset.univ : Finset (Fin 4096)).fold max (⊥ : EReal) (score A b n)
def weight (A : Args) (b : Fin 4) (n m : Fin 4096) : EReal := Ideal.exp (score A b n m - rowMax A b n)
def rowSum (A : Args) (b : Fin 4) (n : Fin 4096) : EReal := ∑ m : Fin 4096, weight A b n m

/-- The mix with the raw weights, divided by the row sum once. -/
def mixDeferred (A : Args) (b : Fin 4) (n : Fin 4096) (d : Fin 256) : EReal :=
  Ideal.div (∑ m : Fin 4096, weight A b n m * value A b m d) (rowSum A b n)
/-- The mix with every weight divided by the row sum first. -/
def mixNormalized (A : Args) (b : Fin 4) (n : Fin 4096) (d : Fin 256) : EReal :=
  ∑ m : Fin 4096, Ideal.div (weight A b n m) (rowSum A b n) * value A b m d

/-- The result at image `b`, row `h`, column `w`, channel `d`, from a mix. -/
def outAt (mix : Fin 4 → Fin 4096 → Fin 256 → EReal) (A : Args) (b : Fin 4) (h w : Fin 64) (d : Fin 256) : EReal :=
  A.X (ix4 b h w d) + ((∑ e : Fin 256, mix b (pixOf h w) e * A.Wv (ix2 e d)) + A.bv (ix1 d))
/-- The result array from a mix. -/
def out (mix : Fin 4 → Fin 4096 → Fin 256 → EReal) (A : Args) : Img := fun i => outAt mix A (i 0) (i 1) (i 2) (i 3)

/-! ## Reals stay real -/

theorem real_sum {ι : Type} [Fintype ι] (f : ι → EReal) (h : ∀ i, ∃ r : ℝ, f i = (r : EReal)) :
    ∃ r : ℝ, ∑ i, f i = (r : EReal) :=
  Finset.sum_induction f (fun x => ∃ r : ℝ, x = (r : EReal))
    (fun a b ⟨x, hx⟩ ⟨y, hy⟩ => ⟨x + y, by rw [hx, hy, EReal.coe_add]⟩) ⟨0, rfl⟩ (fun i _ => h i)

theorem real_mul {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb; exact ⟨x * y, (EReal.coe_mul x y).symm⟩

theorem real_add {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb; exact ⟨x + y, (EReal.coe_add x y).symm⟩

theorem real_proj {K : Nat} (X : Img) (W : (⟨2, ![256, K]⟩ : Shape).Idx → EReal) (β : (⟨1, ![K]⟩ : Shape).Idx → EReal)
    (hX : IsReal X) (hW : IsReal W) (hβ : IsReal β) (b : Fin 4) (n : Fin 4096) (k : Fin K) :
    ∃ r : ℝ, proj X W β b n k = (r : EReal) :=
  real_add (real_sum _ fun c => real_mul (hX _) (hW _)) (hβ _)

/-- The maximum of finitely many reals over a set that is not empty is a real (the fold starts at `⊥`). -/
theorem real_fold_max {ι : Type} [DecidableEq ι] (f : ι → EReal) (h : ∀ i, ∃ r : ℝ, f i = (r : EReal)) (s : Finset ι) :
    (s = ∅ ∧ s.fold max (⊥ : EReal) f = ⊥) ∨ ∃ r : ℝ, s.fold max (⊥ : EReal) f = (r : EReal) := by
  induction s using Finset.induction_on with
  | empty => exact Or.inl ⟨rfl, rfl⟩
  | insert a s ha ih =>
    refine Or.inr ?_
    rw [Finset.fold_insert ha]
    obtain ⟨x, hx⟩ := h a
    rcases ih with ⟨-, h0⟩ | ⟨y, hy⟩
    · exact ⟨x, by rw [h0, hx, max_eq_left bot_le]⟩
    · exact ⟨max x y, by rw [hy, hx]; exact (EReal.coe_strictMono.monotone.map_max).symm⟩

variable (A : Args)

theorem real_score (hX : IsReal A.X) (hWf : IsReal A.Wf) (hbf : IsReal A.bf) (hWg : IsReal A.Wg) (hbg : IsReal A.bg)
    (b : Fin 4) (n m : Fin 4096) : ∃ r : ℝ, score A b n m = (r : EReal) :=
  real_sum _ fun k => real_mul (real_proj _ _ _ hX hWg hbg b n k) (real_proj _ _ _ hX hWf hbf b m k)

theorem real_rowMax (hX : IsReal A.X) (hWf : IsReal A.Wf) (hbf : IsReal A.bf) (hWg : IsReal A.Wg) (hbg : IsReal A.bg)
    (b : Fin 4) (n : Fin 4096) : ∃ r : ℝ, rowMax A b n = (r : EReal) := by
  rcases real_fold_max (score A b n) (real_score A hX hWf hbf hWg hbg b n) Finset.univ with ⟨h0, -⟩ | h
  · exact absurd h0 (Finset.univ_nonempty (α := Fin 4096)).ne_empty
  · exact h

/-- With finite keys and queries every weight is a positive real. -/
theorem weight_pos_real (hX : IsReal A.X) (hWf : IsReal A.Wf) (hbf : IsReal A.bf) (hWg : IsReal A.Wg) (hbg : IsReal A.bg)
    (b : Fin 4) (n m : Fin 4096) : ∃ r : ℝ, 0 < r ∧ weight A b n m = (r : EReal) := by
  obtain ⟨s, hs⟩ := real_score A hX hWf hbf hWg hbg b n m
  obtain ⟨M, hM⟩ := real_rowMax A hX hWf hbf hWg hbg b n
  refine ⟨Real.exp (s - M), Real.exp_pos _, ?_⟩
  unfold weight
  rw [hs, hM, ← EReal.coe_sub, Ideal.exp_coe]

/-- … and so is the row sum. -/
theorem rowSum_pos_real (hX : IsReal A.X) (hWf : IsReal A.Wf) (hbf : IsReal A.bf) (hWg : IsReal A.Wg) (hbg : IsReal A.bg)
    (b : Fin 4) (n : Fin 4096) : ∃ r : ℝ, 0 < r ∧ rowSum A b n = (r : EReal) :=
  Finset.sum_induction_nonempty (weight A b n) (fun x => ∃ r : ℝ, 0 < r ∧ x = (r : EReal))
    (fun a b ⟨x, hx0, hx⟩ ⟨y, hy0, hy⟩ => ⟨x + y, add_pos hx0 hy0, by rw [hx, hy, EReal.coe_add]⟩)
    Finset.univ_nonempty (fun m _ => weight_pos_real A hX hWf hbf hWg hbg b n m)

/-! ## The law: a nonnegative real factor distributes over a sum of extended reals -/

theorem sum_mul_real {ι : Type} [DecidableEq ι] (s : Finset ι) (a : ι → EReal) (c : ℝ) (hc : 0 ≤ c) :
    (∑ i ∈ s, a i) * (c : EReal) = ∑ i ∈ s, a i * (c : EReal) := by
  induction s using Finset.induction_on with
  | empty => simp
  | insert i s hi ih =>
    rw [Finset.sum_insert hi, Finset.sum_insert hi,
      EReal.right_distrib_of_nonneg_of_ne_top (EReal.coe_nonneg.mpr hc) (EReal.coe_ne_top c), ih]

/-- Dividing the mix by a positive real row sum once is dividing every weight by it. -/
theorem mix_eq_of_rowSum (b : Fin 4) (n : Fin 4096) (d : Fin 256) (r : ℝ) (hr : 0 < r) (hl : rowSum A b n = (r : EReal)) :
    mixDeferred A b n d = mixNormalized A b n d := by
  unfold mixDeferred mixNormalized
  rw [hl, Ideal.div_coe hr.ne', sum_mul_real _ _ _ (by positivity)]
  refine Finset.sum_congr rfl fun m _ => ?_
  rw [Ideal.div_coe hr.ne', mul_right_comm]

theorem mix_eq (hX : IsReal A.X) (hWf : IsReal A.Wf) (hbf : IsReal A.bf) (hWg : IsReal A.Wg) (hbg : IsReal A.bg) :
    mixDeferred A = mixNormalized A := by
  funext b n d
  obtain ⟨r, hr, hl⟩ := rowSum_pos_real A hX hWf hbf hWg hbg b n
  exact mix_eq_of_rowSum A b n d r hr hl

/-- Hence the two results are one array when the keys' and queries' inputs are finite. -/
theorem out_eq (hX : IsReal A.X) (hWf : IsReal A.Wf) (hbf : IsReal A.bf) (hWg : IsReal A.Wg) (hbg : IsReal A.bg) :
    out (mixDeferred A) A = out (mixNormalized A) A := by
  rw [mix_eq A hX hWf hbf hWg hbg]

end Cert.Attn

end
-- ==== Proof.KernelRun.lean ====
/-
  The whole program run, with the result named.

  The program is four segments: a reshape of the image batch to [4, 4096, 256], the projection kernel, the attention
  kernel, and a reshape of its output back to [4, 64, 64, 256].  Run from any memory with zero counters, every weakly
  fair execution terminates without a fault; the last segment leaves every buffer of the TensorCore at the contents
  the segments' fold `W4` names, so the result buffer ends at `W4` read at it, and the nine arguments end as launched.
-/
import proofs.«170908_j2379411882220_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, the result buffer at the last boundary's contents and the
    arguments as launched. -/
theorem run_result : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Whole

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.QkvPayload.lean ====
/-
  One block of the projection kernel, read at an entry.

  The body takes a block of 1024 pixels (rows) by 256 channels and three weight matrices with their biases.  Its three
  stores hold, for row r of the block:
    * the keys, stored TRANSPOSED: entry (k, r) is  Σ_c x(r, c) · Wf(c, k) + bf(k);
    * the queries: entry (r, k) is  Σ_c x(r, c) · Wg(c, k) + bg(k);
    * the values: entry (r, d) is  Σ_c x(r, c) · Wh(c, d) + bh(d)
  (a change of float format is the identity on the extended reals, so the roundings on the way into the third product
  and on the way out of it vanish).  Each is a matrix product into a zero accumulator plus a bias row repeated down the
  rows; the casts between [1, a, b] and [a, b] and the transpose only rename the entry.
-/
import proofs.«170908_j2379411882220_2_alg».proof.Proof.Gen.KernelIdeal.Skeleton
import proofs.«170908_j2379411882220_2_alg».proof.Proof.LibPlainMatmul
import Idealize.ShloMosaic.Lib.ValueLayout
import Idealize.ShloMosaic.Lib.ValueIdx
import Idealize.ShloMosaic.PureOps.Ideal.Laws

noncomputable section

open scoped BigOperators

namespace Cert.KernelIdeal.QkvValue

open Cert.KernelIdeal Cert.KernelIdeal.Gen Idealize.ShloMosaic Idealize.ShloMosaic.ValueIdx

/-- A 1024 × 256 block times a 256 × 32 matrix into zeros, at (a, b). -/
theorem narrowProduct_apply (prec : Option ContractPrecision) (A : FVec Ideal S1024x256 .f32) (B : FVec Ideal S256x32 .f32)
    (a : Fin 1024) (b : Fin 32) :
    matmul dot_S1024x256_S256x32_S1024x32_1_0_0_1_n_n prec A B (constant (F := Ideal) S1024x32 .f32 0x00000000#32) (ix2 a b)
      = ∑ c : Fin 256, A (ix2 a c) * B (ix2 c b) :=
  matmul_plain_zero_apply _ prec A B a b

/-- A 1024 × 256 block times a 256 × 256 matrix into zeros, at (a, b) (operands in the narrow float format). -/
theorem wideProduct_apply (prec : Option ContractPrecision) (A : FVec Ideal S1024x256 .bf16) (B : FVec Ideal S256x256 .bf16)
    (a : Fin 1024) (b : Fin 256) :
    matmul dot_S1024x256_S256x256_S1024x256_1_0_0_1_n_n prec A B (constant (F := Ideal) S1024x256 .f32 0x00000000#32) (ix2 a b)
      = ∑ c : Fin 256, A (ix2 a c) * B (ix2 c b) :=
  matmul_plain_zero_apply _ prec A B a b

/-- The keys of a block, stored transposed. -/
theorem keyBlock_apply (x0 : Vec Ideal S1x1024x256 .f32) (W : Vec Ideal S256x32 .f32) (β : Vec Ideal S32 .f32)
    (k : Fin 32) (r : Fin 1024) :
    k0_pay3 (F := Ideal) x0 W β (ix3 (0 : Fin 1) k r)
      = (∑ c : Fin 256, x0 (ix3 (0 : Fin 1) r c) * W (ix2 c k)) + β (ix1 k) := by
  unfold k0_pay3 k0_pay2
  dsimp only
  rw [shapeCast_ab_1ab_apply, transpose_ix2_apply, addf_apply, narrowProduct_apply, broadcastTo_1b_ab_apply,
    shapeCast_a_1a_apply]
  simp only [shapeCast_1ab_ab_apply]

/-- The queries of a block. -/
theorem queryBlock_apply (x0 : Vec Ideal S1x1024x256 .f32) (W : Vec Ideal S256x32 .f32) (β : Vec Ideal S32 .f32)
    (r : Fin 1024) (k : Fin 32) :
    k0_pay4 (F := Ideal) x0 W β (ix3 (0 : Fin 1) r k)
      = (∑ c : Fin 256, x0 (ix3 (0 : Fin 1) r c) * W (ix2 c k)) + β (ix1 k) := by
  unfold k0_pay4 k0_pay2
  dsimp only
  rw [shapeCast_ab_1ab_apply, addf_apply, narrowProduct_apply, broadcastTo_1b_ab_apply, shapeCast_a_1a_apply]
  simp only [shapeCast_1ab_ab_apply]

/-- The values of a block. -/
theorem valueBlock_apply (x0 : Vec Ideal S1x1024x256 .f32) (W : Vec Ideal S256x256 .f32) (β : Vec Ideal S256 .f32)
    (r : Fin 1024) (d : Fin 256) :
    k0_pay1 (F := Ideal) (k0_pay5 (F := Ideal) x0 W β) (ix3 (0 : Fin 1) r d)
      = (∑ c : Fin 256, x0 (ix3 (0 : Fin 1) r c) * W (ix2 c d)) + β (ix1 d) := by
  unfold k0_pay1 k0_pay5 k0_pay2
  dsimp only
  rw [shapeCast_ab_1ab_apply, truncf_apply, addf_apply, wideProduct_apply, broadcastTo_1b_ab_apply, shapeCast_a_1a_apply]
  simp only [truncf_apply, shapeCast_1ab_ab_apply]

end Cert.KernelIdeal.QkvValue

end
-- ==== Proof.QkvArrays.lean ====
/-
  The projection kernel's three output arrays, whole.

  The grid has 4 × 4 points: point (b, i) takes rows 1024·i … 1024·i + 1023 of image b.  Its keys go, transposed, to
  columns 1024·i … of the [4, 32, 4096] key array, its queries and values to the same rows of the [4, 4096, 32] and
  [4, 4096, 256] arrays.  Every block an output window writes back is therefore the block of ONE function of the
  arrays the kernel was entered with — the per-pixel linear map `rowLin` — and the blocks tile each array, so each
  array ends holding that function.
-/
import proofs.«170908_j2379411882220_2_alg».proof.Proof.Gen.KernelIdeal.Frame
import proofs.«170908_j2379411882220_2_alg».proof.Proof.QkvPayload
import Idealize.ShloMosaic.Lib.Pipeline.Value

set_option maxRecDepth 16384

noncomputable section

open scoped BigOperators

namespace Cert.KernelIdeal.QkvValue

open Cert.KernelIdeal Cert.KernelIdeal.Gen Idealize.ShloMosaic Idealize.ShloMosaic.ValueIdx Idealize.ShloMosaic.TcCoe
open Idealize.SL.Sem
open Idealize.ShloMosaic.Pipeline (Dat Cfg Window)

/-- Pixel row `n` of image `b` through a linear map: `Σ_c x(b, n, c) · W(c, k) + β(k)`. -/
def rowLin {K : Nat} (x : S4x4096x256.Idx → EReal) (W : (⟨2, ![256, K]⟩ : Shape).Idx → EReal)
    (β : (⟨1, ![K]⟩ : Shape).Idx → EReal) (b : Fin 4) (n : Fin 4096) (k : Fin K) : EReal :=
  (∑ c : Fin 256, x (ix3 b n c) * W (ix2 c k)) + β (ix1 k)

/-- The key array: entry (b, k, n). -/
def keyArr (x : S4x4096x256.Idx → EReal) (W : S256x32.Idx → EReal) (β : S32.Idx → EReal) : S4x32x4096.Idx → EReal :=
  fun i => rowLin x W β (i 0) (i 2) (i 1)
/-- The query array: entry (b, n, k). -/
def queryArr (x : S4x4096x256.Idx → EReal) (W : S256x32.Idx → EReal) (β : S32.Idx → EReal) : S4x4096x32.Idx → EReal :=
  fun i => rowLin x W β (i 0) (i 1) (i 2)
/-- The value array: entry (b, n, d). -/
def valueArr (x : S4x4096x256.Idx → EReal) (W : S256x256.Idx → EReal) (β : S256.Idx → EReal) : S4x4096x256.Idx → EReal :=
  fun i => rowLin x W β (i 0) (i 1) (i 2)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps over the 16 grid points: the pixel block and the three output blocks move together (the
    key block along its last axis), the weights and biases stay, and the block numbers stay below 4. -/
theorem idx_facts : ∀ t : Fin cfg0.N,
    win0_0.index t (0 : Fin 3) = win0_7.index t (0 : Fin 3) ∧ win0_0.index t (1 : Fin 3) = win0_7.index t (2 : Fin 3)
    ∧ win0_0.index t (2 : Fin 3) = 0 ∧ win0_7.index t (1 : Fin 3) = 0
    ∧ win0_8.index t (0 : Fin 3) = win0_7.index t (0 : Fin 3) ∧ win0_8.index t (1 : Fin 3) = win0_7.index t (2 : Fin 3)
    ∧ win0_8.index t (2 : Fin 3) = 0
    ∧ win0_9.index t (0 : Fin 3) = win0_7.index t (0 : Fin 3) ∧ win0_9.index t (1 : Fin 3) = win0_7.index t (2 : Fin 3)
    ∧ win0_9.index t (2 : Fin 3) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 3) ≤ 3 ∧ win0_7.index t (2 : Fin 3) ≤ 3 :=
  (by decide +kernel : ∀ t : Fin grid0.N, _)

/-- Every (image, row block) pair is some point's. -/
theorem idx_onto : ∀ (q0 : Fin 4) (q1 : Fin 4), ∃ t : Fin cfg0.N,
    win0_7.index t (0 : Fin 3) = q0.val ∧ win0_7.index t (2 : Fin 3) = q1.val :=
  (by decide +kernel : ∀ (q0 : Fin 4) (q1 : Fin 4), ∃ t : Fin grid0.N, win0_7.index t (0 : Fin 3) = q0.val ∧ win0_7.index t (2 : Fin 3) = q1.val)

variable (V : (c : Dev nD) → (b : Ref sig .tc) → Buf (Elt Ideal) ((c : Thread nD τ).loc b))

/-- The pixel block of a point, read at (row r, channel cc), is the pixel array at any index with those coordinates. -/
theorem read_pixels (c : Dev nD) (t : Fin cfg0.N) (r : Fin 1024) (cc : Fin 256) (i : S4x4096x256.Idx)
    (h0 : (i 0).val = win0_7.index t (0 : Fin 3)) (h1 : (i 1).val = win0_7.index t (2 : Fin 3) * 1024 + r.val)
    (h2 : (i 2).val = cc.val) :
    iblk0 V c 0 t (ix3 (0 : Fin 1) r cc) = V c main_v0 i := by
  obtain ⟨e0, e1, e2, -⟩ := idx_facts t
  show V c main_v0 (((cfg0.win 0).blk t).view.emb (ix3 (0 : Fin 1) r cc)) = V c main_v0 i
  refine congrArg (V c main_v0) (funext fun a => Fin.ext ?_)
  match a with
  | ⟨0, _⟩ => show win0_0.index t (0 : Fin 3) * 1 + 1 * 0 = (i 0).val; omega
  | ⟨1, _⟩ => show win0_0.index t (1 : Fin 3) * 1024 + 1 * r.val = (i 1).val; omega
  | ⟨2, _⟩ => show win0_0.index t (2 : Fin 3) * 256 + 1 * cc.val = (i 2).val; omega

/-- A weight matrix's block is the whole matrix at every point. -/
theorem read_Wf (c : Dev nD) (t : Fin cfg0.N) (cc : Fin 256) (k : Fin 32) :
    iblk0 V c 1 t (ix2 cc k) = V c main_arg1 (ix2 cc k) := by
  obtain ⟨-, -, -, -, -, -, -, -, -, -, e0, e1, -⟩ := idx_facts t
  show V c main_arg1 (((cfg0.win 1).blk t).view.emb (ix2 cc k)) = V c main_arg1 (ix2 cc k)
  refine congrArg (V c main_arg1) (funext fun a => Fin.ext ?_)
  match a with
  | ⟨0, _⟩ => show win0_1.index t (0 : Fin 2) * 256 + 1 * cc.val = cc.val; omega
  | ⟨1, _⟩ => show win0_1.index t (1 : Fin 2) * 32 + 1 * k.val = k.val; omega
theorem read_bf (c : Dev nD) (t : Fin cfg0.N) (k : Fin 32) :
    iblk0 V c 2 t (ix1 k) = V c main_arg2 (ix1 k) := by
  obtain ⟨-, -, -, -, -, -, -, -, -, -, -, -, e0, -⟩ := idx_facts t
  show V c main_arg2 (((cfg0.win 2).blk t).view.emb (ix1 k)) = V c main_arg2 (ix1 k)
  refine congrArg (V c main_arg2) (funext fun a => Fin.ext ?_)
  match a with
  | ⟨0, _⟩ => show win0_2.index t (0 : Fin 1) * 32 + 1 * k.val = k.val; omega
theorem read_Wg (c : Dev nD) (t : Fin cfg0.N) (cc : Fin 256) (k : Fin 32) :
    iblk0 V c 3 t (ix2 cc k) = V c main_arg3 (ix2 cc k) := by
  obtain ⟨-, -, -, -, -, -, -, -, -, -, -, -, -, e0, e1, -⟩ := idx_facts t
  show V c main_arg3 (((cfg0.win 3).blk t).view.emb (ix2 cc k)) = V c main_arg3 (ix2 cc k)
  refine congrArg (V c main_arg3) (funext fun a => Fin.ext ?_)
  match a with
  | ⟨0, _⟩ => show win0_3.index t (0 : Fin 2) * 256 + 1 * cc.val = cc.val; omega
  | ⟨1, _⟩ => show win0_3.index t (1 : Fin 2) * 32 + 1 * k.val = k.val; omega
theorem read_bg (c : Dev nD) (t : Fin cfg0.N) (k : Fin 32) :
    iblk0 V c 4 t (ix1 k) = V c main_arg4 (ix1 k) := by
  obtain ⟨-, -, -, -, -, -, -, -, -, -, -, -, -, -, -, e0, -⟩ := idx_facts t
  show V c main_arg4 (((cfg0.win 4).blk t).view.emb (ix1 k)) = V c main_arg4 (ix1 k)
  refine congrArg (V c main_arg4) (funext fun a => Fin.ext ?_)
  match a with
  | ⟨0, _⟩ => show win0_4.index t (0 : Fin 1) * 32 + 1 * k.val = k.val; omega
theorem read_Wh (c : Dev nD) (t : Fin cfg0.N) (cc : Fin 256) (d : Fin 256) :
    iblk0 V c 5 t (ix2 cc d) = V c main_arg5 (ix2 cc d) := by
  obtain ⟨-, -, -, -, -, -, -, -, -, -, -, -, -, -, -, -, e0, e1, -⟩ := idx_facts t
  show V c main_arg5 (((cfg0.win 5).blk t).view.emb (ix2 cc d)) = V c main_arg5 (ix2 cc d)
  refine congrArg (V c main_arg5) (funext fun a => Fin.ext ?_)
  match a with
  | ⟨0, _⟩ => show win0_5.index t (0 : Fin 2) * 256 + 1 * cc.val = cc.val; omega
  | ⟨1, _⟩ => show win0_5.index t (1 : Fin 2) * 256 + 1 * d.val = d.val; omega
theorem read_bh (c : Dev nD) (t : Fin cfg0.N) (d : Fin 256) :
    iblk0 V c 6 t (ix1 d) = V c main_arg6 (ix1 d) := by
  obtain ⟨-, -, -, -, -, -, -, -, -, -, -, -, -, -, -, -, -, -, e0, -⟩ := idx_facts t
  show V c main_arg6 (((cfg0.win 6).blk t).view.emb (ix1 d)) = V c main_arg6 (ix1 d)
  refine congrArg (V c main_arg6) (funext fun a => Fin.ext ?_)
  match a with
  | ⟨0, _⟩ => show win0_6.index t (0 : Fin 1) * 256 + 1 * d.val = d.val; omega

/-! ## The keys (output window 7) -/

/-- What a point writes back to the key array is the block of `keyArr` of the entry arrays. -/
theorem flushedKeys_eq (c : Dev nD) (t : Fin cfg0.N) :
    (dat0 V c).flushed 7 t
      = ((cfg0.win 7).blk t).view.read (Elt Ideal) (keyArr (V c main_v0) (V c main_arg1) (V c main_arg2)) := by
  show (cfg0.win 7).cut (grid0.coords t) ((dat0 V c).after 7 t) = _
  rw [after0_7]
  unfold out0_7
  rw [View.canon_unit_zero hz3]
  simp only [View.ld_unit_zero (S := S1x1024x256) hz3, View.ld_unit_zero (S := S256x32) hz2, View.ld_unit_zero (S := S32) hz1]
  funext j
  obtain ⟨u, k, r, rfl⟩ : ∃ (u : Fin 1) (k : Fin 32) (r : Fin 1024), j = ix3 u k r := ⟨j 0, j 1, j 2, eq_ix3 j⟩
  obtain rfl : u = 0 := Subsingleton.elim _ _
  obtain ⟨-, -, -, e3, -⟩ := idx_facts t
  refine (keyBlock_apply (iblk0 V c 0 t) (iblk0 V c 1 t) (iblk0 V c 2 t) k r).trans ?_
  show _ = rowLin (V c main_v0) (V c main_arg1) (V c main_arg2)
      ((((cfg0.win 7).blk t).view.emb (ix3 (0 : Fin 1) k r)) 0) ((((cfg0.win 7).blk t).view.emb (ix3 (0 : Fin 1) k r)) 2)
      ((((cfg0.win 7).blk t).view.emb (ix3 (0 : Fin 1) k r)) 1)
  unfold rowLin
  have hk : ((((cfg0.win 7).blk t).view.emb (ix3 (0 : Fin 1) k r)) 1 : Fin 32) = k :=
    Fin.ext (show win0_7.index t (1 : Fin 3) * 32 + 1 * k.val = k.val by omega)
  rw [hk, read_bf V c t k]
  refine congrArg (· + _) (Finset.sum_congr rfl fun cc _ => ?_)
  rw [read_Wf V c t cc k]
  refine congrArg (· * _) (read_pixels V c t r cc _ ?_ ?_ rfl)
  · show win0_7.index t (0 : Fin 3) * 1 + 1 * 0 = win0_7.index t (0 : Fin 3); omega
  · show win0_7.index t (2 : Fin 3) * 1024 + 1 * r.val = win0_7.index t (2 : Fin 3) * 1024 + r.val; omega

theorem mem_blkKeys (t : Fin cfg0.N) (i : S4x32x4096.Idx) :
    i ∈ ((cfg0.win 7).blk t).view.set ↔ ∀ a : Fin 3, win0_7.index t a * S1x32x1024.size a ≤ (i a).val
      ∧ (i a).val < win0_7.index t a * S1x32x1024.size a + S1x32x1024.size a := by
  show i ∈ ((View.whole main_v1_0).slice (win0_7.rect t)).set ↔ _
  rw [View.set_slice_whole, Rect.mem_set_unit]
  exact Iff.rfl

theorem coverKeys (i : S4x32x4096.Idx) :
    ∃ t : Fin cfg0.N, (cfg0.win 7).flush t = true ∧ i ∈ ((cfg0.win 7).blk t).view.set := by
  have h0 : (i 0).val < 4 := (i 0).isLt
  have h1 : (i 1).val < 32 := (i 1).isLt
  have h2 : (i 2).val < 4096 := (i 2).isLt
  obtain ⟨t, q0, q2⟩ := idx_onto ⟨(i 0).val, h0⟩ ⟨(i 2).val / 1024, by omega⟩
  obtain ⟨-, -, -, e3, -⟩ := idx_facts t
  refine ⟨t, flush0_7 t, ?_⟩
  rw [mem_blkKeys]
  intro a
  match a with
  | ⟨0, _⟩ => show win0_7.index t (0 : Fin 3) * 1 ≤ (i 0).val ∧ (i 0).val < win0_7.index t (0 : Fin 3) * 1 + 1; simp only at q0; omega
  | ⟨1, _⟩ => show win0_7.index t (1 : Fin 3) * 32 ≤ (i 1).val ∧ (i 1).val < win0_7.index t (1 : Fin 3) * 32 + 32; omega
  | ⟨2, _⟩ => show win0_7.index t (2 : Fin 3) * 1024 ≤ (i 2).val ∧ (i 2).val < win0_7.index t (2 : Fin 3) * 1024 + 1024; simp only at q2; omega

/-- The key array after the kernel. -/
theorem finalKeys (c : Dev nD) :
    (dat0 V c).arrAt 7 cfg0.N = keyArr (V c main_v0) (V c main_arg1) (V c main_arg2) :=
  (dat0 V c).arrAt_eq_of_cover 7 _ (fun t _ => flushedKeys_eq V c t) coverKeys

/-! ## The queries (output window 8) -/

theorem flushedQueries_eq (c : Dev nD) (t : Fin cfg0.N) :
    (dat0 V c).flushed 8 t
      = ((cfg0.win 8).blk t).view.read (Elt Ideal) (queryArr (V c main_v0) (V c main_arg3) (V c main_arg4)) := by
  show (cfg0.win 8).cut (grid0.coords t) ((dat0 V c).after 8 t) = _
  rw [after0_8]
  unfold out0_8
  rw [View.canon_unit_zero hz3]
  simp only [View.ld_unit_zero (S := S1x1024x256) hz3, View.ld_unit_zero (S := S256x32) hz2, View.ld_unit_zero (S := S32) hz1]
  funext j
  obtain ⟨u, r, k, rfl⟩ : ∃ (u : Fin 1) (r : Fin 1024) (k : Fin 32), j = ix3 u r k := ⟨j 0, j 1, j 2, eq_ix3 j⟩
  obtain rfl : u = 0 := Subsingleton.elim _ _
  obtain ⟨-, -, -, -, e4, e5, e6, -⟩ := idx_facts t
  refine (queryBlock_apply (iblk0 V c 0 t) (iblk0 V c 3 t) (iblk0 V c 4 t) r k).trans ?_
  show _ = rowLin (V c main_v0) (V c main_arg3) (V c main_arg4)
      ((((cfg0.win 8).blk t).view.emb (ix3 (0 : Fin 1) r k)) 0) ((((cfg0.win 8).blk t).view.emb (ix3 (0 : Fin 1) r k)) 1)
      ((((cfg0.win 8).blk t).view.emb (ix3 (0 : Fin 1) r k)) 2)
  unfold rowLin
  have hk : ((((cfg0.win 8).blk t).view.emb (ix3 (0 : Fin 1) r k)) 2 : Fin 32) = k :=
    Fin.ext (show win0_8.index t (2 : Fin 3) * 32 + 1 * k.val = k.val by omega)
  rw [hk, read_bg V c t k]
  refine congrArg (· + _) (Finset.sum_congr rfl fun cc _ => ?_)
  rw [read_Wg V c t cc k]
  refine congrArg (· * _) (read_pixels V c t r cc _ ?_ ?_ rfl)
  · show win0_8.index t (0 : Fin 3) * 1 + 1 * 0 = win0_7.index t (0 : Fin 3); omega
  · show win0_8.index t (1 : Fin 3) * 1024 + 1 * r.val = win0_7.index t (2 : Fin 3) * 1024 + r.val; omega

theorem mem_blkQueries (t : Fin cfg0.N) (i : S4x4096x32.Idx) :
    i ∈ ((cfg0.win 8).blk t).view.set ↔ ∀ a : Fin 3, win0_8.index t a * S1x1024x32.size a ≤ (i a).val
      ∧ (i a).val < win0_8.index t a * S1x1024x32.size a + S1x1024x32.size a := by
  show i ∈ ((View.whole main_v1_1).slice (win0_8.rect t)).set ↔ _
  rw [View.set_slice_whole, Rect.mem_set_unit]
  exact Iff.rfl

theorem coverQueries (i : S4x4096x32.Idx) :
    ∃ t : Fin cfg0.N, (cfg0.win 8).flush t = true ∧ i ∈ ((cfg0.win 8).blk t).view.set := by
  have h0 : (i 0).val < 4 := (i 0).isLt
  have h1 : (i 1).val < 4096 := (i 1).isLt
  have h2 : (i 2).val < 32 := (i 2).isLt
  obtain ⟨t, q0, q2⟩ := idx_onto ⟨(i 0).val, h0⟩ ⟨(i 1).val / 1024, by omega⟩
  obtain ⟨-, -, -, -, e4, e5, e6, -⟩ := idx_facts t
  refine ⟨t, flush0_8 t, ?_⟩
  rw [mem_blkQueries]
  intro a
  match a with
  | ⟨0, _⟩ => show win0_8.index t (0 : Fin 3) * 1 ≤ (i 0).val ∧ (i 0).val < win0_8.index t (0 : Fin 3) * 1 + 1; simp only at q0; omega
  | ⟨1, _⟩ => show win0_8.index t (1 : Fin 3) * 1024 ≤ (i 1).val ∧ (i 1).val < win0_8.index t (1 : Fin 3) * 1024 + 1024; simp only at q2; omega
  | ⟨2, _⟩ => show win0_8.index t (2 : Fin 3) * 32 ≤ (i 2).val ∧ (i 2).val < win0_8.index t (2 : Fin 3) * 32 + 32; omega

/-- The query array after the kernel. -/
theorem finalQueries (c : Dev nD) :
    (dat0 V c).arrAt 8 cfg0.N = queryArr (V c main_v0) (V c main_arg3) (V c main_arg4) :=
  (dat0 V c).arrAt_eq_of_cover 8 _ (fun t _ => flushedQueries_eq V c t) coverQueries

/-! ## The values (output window 9) -/

theorem flushedValues_eq (c : Dev nD) (t : Fin cfg0.N) :
    (dat0 V c).flushed 9 t
      = ((cfg0.win 9).blk t).view.read (Elt Ideal) (valueArr (V c main_v0) (V c main_arg5) (V c main_arg6)) := by
  show (cfg0.win 9).cut (grid0.coords t) ((dat0 V c).after 9 t) = _
  rw [after0_9]
  unfold out0_9
  rw [View.canon_unit_zero hz3]
  simp only [View.ld_unit_zero (S := S1x1024x256) hz3, View.ld_unit_zero (S := S256x256) hz2, View.ld_unit_zero (S := S256) hz1]
  funext j
  obtain ⟨u, r, d, rfl⟩ : ∃ (u : Fin 1) (r : Fin 1024) (d : Fin 256), j = ix3 u r d := ⟨j 0, j 1, j 2, eq_ix3 j⟩
  obtain rfl : u = 0 := Subsingleton.elim _ _
  obtain ⟨-, -, -, -, -, -, -, e7, e8, e9, -⟩ := idx_facts t
  refine (valueBlock_apply (iblk0 V c 0 t) (iblk0 V c 5 t) (iblk0 V c 6 t) r d).trans ?_
  show _ = rowLin (V c main_v0) (V c main_arg5) (V c main_arg6)
      ((((cfg0.win 9).blk t).view.emb (ix3 (0 : Fin 1) r d)) 0) ((((cfg0.win 9).blk t).view.emb (ix3 (0 : Fin 1) r d)) 1)
      ((((cfg0.win 9).blk t).view.emb (ix3 (0 : Fin 1) r d)) 2)
  unfold rowLin
  have hk : ((((cfg0.win 9).blk t).view.emb (ix3 (0 : Fin 1) r d)) 2 : Fin 256) = d :=
    Fin.ext (show win0_9.index t (2 : Fin 3) * 256 + 1 * d.val = d.val by omega)
  rw [hk, read_bh V c t d]
  refine congrArg (· + _) (Finset.sum_congr rfl fun cc _ => ?_)
  rw [read_Wh V c t cc d]
  refine congrArg (· * _) (read_pixels V c t r cc _ ?_ ?_ rfl)
  · show win0_9.index t (0 : Fin 3) * 1 + 1 * 0 = win0_7.index t (0 : Fin 3); omega
  · show win0_9.index t (1 : Fin 3) * 1024 + 1 * r.val = win0_7.index t (2 : Fin 3) * 1024 + r.val; omega

theorem mem_blkValues (t : Fin cfg0.N) (i : S4x4096x256.Idx) :
    i ∈ ((cfg0.win 9).blk t).view.set ↔ ∀ a : Fin 3, win0_9.index t a * S1x1024x256.size a ≤ (i a).val
      ∧ (i a).val < win0_9.index t a * S1x1024x256.size a + S1x1024x256.size a := by
  show i ∈ ((View.whole main_v1_2).slice (win0_9.rect t)).set ↔ _
  rw [View.set_slice_whole, Rect.mem_set_unit]
  exact Iff.rfl

theorem coverValues (i : S4x4096x256.Idx) :
    ∃ t : Fin cfg0.N, (cfg0.win 9).flush t = true ∧ i ∈ ((cfg0.win 9).blk t).view.set := by
  have h0 : (i 0).val < 4 := (i 0).isLt
  have h1 : (i 1).val < 4096 := (i 1).isLt
  have h2 : (i 2).val < 256 := (i 2).isLt
  obtain ⟨t, q0, q2⟩ := idx_onto ⟨(i 0).val, h0⟩ ⟨(i 1).val / 1024, by omega⟩
  obtain ⟨-, -, -, -, -, -, -, e7, e8, e9, -⟩ := idx_facts t
  refine ⟨t, flush0_9 t, ?_⟩
  rw [mem_blkValues]
  intro a
  match a with
  | ⟨0, _⟩ => show win0_9.index t (0 : Fin 3) * 1 ≤ (i 0).val ∧ (i 0).val < win0_9.index t (0 : Fin 3) * 1 + 1; simp only at q0; omega
  | ⟨1, _⟩ => show win0_9.index t (1 : Fin 3) * 1024 ≤ (i 1).val ∧ (i 1).val < win0_9.index t (1 : Fin 3) * 1024 + 1024; simp only at q2; omega
  | ⟨2, _⟩ => show win0_9.index t (2 : Fin 3) * 256 ≤ (i 2).val ∧ (i 2).val < win0_9.index t (2 : Fin 3) * 256 + 256; omega

/-- The value array after the kernel. -/
theorem finalValues (c : Dev nD) :
    (dat0 V c).arrAt 9 cfg0.N = valueArr (V c main_v0) (V c main_arg5) (V c main_arg6) :=
  (dat0 V c).arrAt_eq_of_cover 9 _ (fun t _ => flushedValues_eq V c t) coverValues

end Cert.KernelIdeal.QkvValue

end
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.AttnPayload.lean ====
/-
  One block of the attention kernel, read at an entry.

  The body takes 512 query rows q(r, ·) of one image, that image's whole key array stored transposed kT(·, m), its whole
  value array v(m, ·), the 512 matching pixel rows, and the last linear map (Wv, bv).  For row r:
    score(m) = Σ_k q(r, k) · kT(k, m);  the row maximum;  weight(m) = exp (score(m) − maximum);
    mix(e) = (Σ_m weight(m) · v(m, e)) / Σ_m weight(m)      — one division, after the sum —
    stored(r, d) = pixel(r, d) + (Σ_e mix(e) · Wv(e, d) + bv(d)).
  A change of float format is the identity on the extended reals.  The one-column casts and broadcasts repeat a row's
  maximum and sum along the row; the reductions are the fold of `max` from −∞ and the sum over the row's 4096 entries.
-/
import proofs.«170908_j2379411882220_2_alg».proof.Proof.Gen.KernelIdeal.Skeleton
import proofs.«170908_j2379411882220_2_alg».proof.Proof.LibPlainMatmul
import proofs.«170908_j2379411882220_2_alg».proof.Proof.LibLaneSum
import proofs.«170908_j2379411882220_2_alg».proof.Proof.LibColumnCast
import proofs.«170908_j2379411882220_2_alg».proof.Proof.LibColumnBroadcast
import Idealize.ShloMosaic.Lib.ValueLayout
import Idealize.ShloMosaic.Lib.ValueIdx
import Idealize.ShloMosaic.PureOps.Ideal.Laws

noncomputable section

open scoped BigOperators

namespace Cert.KernelIdeal.AttnValue

open Cert.KernelIdeal Cert.KernelIdeal.Gen Idealize.ShloMosaic Idealize.ShloMosaic.ValueIdx

/-! ## One row of attention over 4096 keys, mixed with the raw weights and divided once -/

def rowScore (q : Fin 32 → EReal) (kk : Fin 4096 → Fin 32 → EReal) (m : Fin 4096) : EReal := ∑ k : Fin 32, q k * kk m k
def rowWeight (q : Fin 32 → EReal) (kk : Fin 4096 → Fin 32 → EReal) (m : Fin 4096) : EReal :=
  Ideal.exp (rowScore q kk m - (Finset.univ : Finset (Fin 4096)).fold max (⊥ : EReal) (rowScore q kk))
def mixRow (q : Fin 32 → EReal) (kk : Fin 4096 → Fin 32 → EReal) (vv : Fin 4096 → Fin 256 → EReal) (e : Fin 256) : EReal :=
  Ideal.div (∑ m : Fin 4096, rowWeight q kk m * vv m e) (∑ m : Fin 4096, rowWeight q kk m)

/-! ## The body's non-pointwise operations at an entry -/

theorem exp_apply {s : Shape} {φ : FTy} (x : FVec Ideal s φ) (i : s.Idx) : exp x i = Ideal.exp (x i) := rfl

/-- Queries (512 × 32) times transposed keys (32 × 4096) into zeros, at (r, m). -/
theorem scoreProduct_apply (prec : Option ContractPrecision) (A : FVec Ideal S512x32 .bf16) (B : FVec Ideal S32x4096 .bf16)
    (r : Fin 512) (m : Fin 4096) :
    matmul dot_S512x32_S32x4096_S512x4096_1_0_0_1_n_n prec A B (constant (F := Ideal) S512x4096 .f32 0x00000000#32) (ix2 r m)
      = ∑ k : Fin 32, A (ix2 r k) * B (ix2 k m) :=
  matmul_plain_zero_apply _ prec A B r m

/-- Weights (512 × 4096) times values (4096 × 256) into zeros, at (r, e). -/
theorem mixProduct_apply (prec : Option ContractPrecision) (A : FVec Ideal S512x4096 .bf16) (B : FVec Ideal S4096x256 .bf16)
    (r : Fin 512) (e : Fin 256) :
    matmul dot_S512x4096_S4096x256_S512x256_1_0_0_1_n_n prec A B (constant (F := Ideal) S512x256 .f32 0x00000000#32) (ix2 r e)
      = ∑ m : Fin 4096, A (ix2 r m) * B (ix2 m e) :=
  matmul_plain_zero_apply _ prec A B r e

/-- The mix (512 × 256) times the last map (256 × 256) into zeros, at (r, d). -/
theorem lastProduct_apply (prec : Option ContractPrecision) (A : FVec Ideal S512x256 .bf16) (B : FVec Ideal S256x256 .bf16)
    (r : Fin 512) (d : Fin 256) :
    matmul dot_S512x256_S256x256_S512x256_1_0_0_1_n_n prec A B (constant (F := Ideal) S512x256 .f32 0x00000000#32) (ix2 r d)
      = ∑ e : Fin 256, A (ix2 r e) * B (ix2 e d) :=
  matmul_plain_zero_apply _ prec A B r d

/-- The sum along a row of a 512 × 4096 matrix. -/
theorem rowSum_apply (src : FVec Ideal S512x4096 .f32) (hφ : FKind.Formats .f32)
    (hacc : (0x00000000#32 : BitVec 32) = 0x00000000#32) (r : Fin 512) :
    multiReduction .add [1] S512 src 0x00000000#32 reduces_S512x4096_S512 hφ hacc (ix1 r)
      = ∑ m : Fin 4096, src (ix2 r m) :=
  multiReduction_add_rows_apply src _ reduces_S512x4096_S512 hφ hacc r

/-- The maximum along a row of a 512 × 4096 matrix: the fold of `max` from −∞. -/
theorem rowMax_apply (src : FVec Ideal S512x4096 .f32) (hφ : FKind.Formats .f32)
    (hacc : (0xFF800000#32 : BitVec 32) = 0xFF800000#32) (r : Fin 512) :
    multiReduction .maximumf [1] S512 src 0xFF800000#32 reduces_S512x4096_S512 hφ hacc (ix1 r)
      = (Finset.univ : Finset (Fin 4096)).fold max (⊥ : EReal) (fun m => src (ix2 r m)) := by
  refine (Ideal.multiReduction_maximumf_single src _ reduces_S512x4096_S512 hφ hacc (ix1 r)).trans ?_
  have hb : (FloatOps.ofBits (F := Ideal) .f32 0xFF800000#32 : EReal) = ⊥ := by
    show Ideal.ofBits .f32 0xFF800000#32 = ⊥
    simp [Ideal.ofBits, Ideal.ieee]
  rw [hb]
  exact Finset.fold_congr fun m _ => congrArg src (reduces_rows_lift reduces_S512x4096_S512 r m)

/-! ## The body stage by stage

The body's intermediate matrices, named: the scores, each row's maximum, the weights, each row's sum, the mix. -/

def scoreMat (q : FVec Ideal S1x512x32 .f32) (kT : FVec Ideal S1x32x4096 .f32) : FVec Ideal S512x4096 .f32 :=
  matmul dot_S512x32_S32x4096_S512x4096_1_0_0_1_n_n none
    (truncf .bf16 (shapeCast S512x32 q shapeCasts_S1x512x32_S512x32) bitsLt_bf16_f32)
    (truncf .bf16 (shapeCast S32x4096 kT shapeCasts_S1x32x4096_S32x4096) bitsLt_bf16_f32)
    (constant S512x4096 .f32 0x00000000#32)

def rowMaxVec (S : FVec Ideal S512x4096 .f32) : FVec Ideal S512 .f32 :=
  multiReduction .maximumf [1] S512 S 0xFF800000#32 reduces_S512x4096_S512 (.inl rfl) rfl

def weightMat (S : FVec Ideal S512x4096 .f32) : FVec Ideal S512x4096 .f32 :=
  exp (subf S (broadcastTo S512x4096 (shapeCast S512x1 (rowMaxVec S) shapeCasts_S512_S512x1) broadcasts_S512x1_S512x4096))

def rowSumVec (P : FVec Ideal S512x4096 .f32) : FVec Ideal S512 .f32 :=
  multiReduction .add [1] S512 P 0x00000000#32 reduces_S512x4096_S512 (.inl rfl) rfl

def mixMat (P : FVec Ideal S512x4096 .f32) (vv : FVec Ideal S1x4096x256 .bf16) : FVec Ideal S512x256 .f32 :=
  divf (matmul dot_S512x4096_S4096x256_S512x256_1_0_0_1_n_n none (truncf .bf16 P bitsLt_bf16_f32)
      (shapeCast S4096x256 vv shapeCasts_S1x4096x256_S4096x256) (constant S512x256 .f32 0x00000000#32))
    (broadcastTo S512x256 (shapeCast S512x1 (rowSumVec P) shapeCasts_S512_S512x1) broadcasts_S512x1_S512x256)

/-- The stored block is the pixel block plus the last map of the mix of the weights of the scores. -/
theorem stored_eq (q : FVec Ideal S1x512x32 .f32) (kT : FVec Ideal S1x32x4096 .f32) (vv : FVec Ideal S1x4096x256 .bf16)
    (Wv : FVec Ideal S256x256 .f32) (bv : FVec Ideal S256 .f32) (px : FVec Ideal S1x512x256 .f32) :
    k1_pay1 (F := Ideal) q kT vv Wv bv px
      = shapeCast S1x512x256
          (addf (shapeCast S512x256 px shapeCasts_S1x512x256_S512x256)
            (addf (matmul dot_S512x256_S256x256_S512x256_1_0_0_1_n_n none
                (truncf .bf16 (mixMat (weightMat (scoreMat q kT)) vv) bitsLt_bf16_f32) (truncf .bf16 Wv bitsLt_bf16_f32)
                (constant S512x256 .f32 0x00000000#32))
              (broadcastTo S512x256 (shapeCast S1x256 bv shapeCasts_S256_S1x256) broadcasts_S1x256_S512x256)))
          shapeCasts_S512x256_S1x512x256 := rfl

theorem scoreMat_apply (q : FVec Ideal S1x512x32 .f32) (kT : FVec Ideal S1x32x4096 .f32) (r : Fin 512) (m : Fin 4096) :
    scoreMat q kT (ix2 r m) = ∑ k : Fin 32, q (ix3 (0 : Fin 1) r k) * kT (ix3 (0 : Fin 1) k m) := by
  unfold scoreMat
  rw [scoreProduct_apply]
  simp only [truncf_apply, shapeCast_1ab_ab_apply]

theorem rowMaxVec_apply (S : FVec Ideal S512x4096 .f32) (r : Fin 512) :
    rowMaxVec S (ix1 r) = (Finset.univ : Finset (Fin 4096)).fold max (⊥ : EReal) (fun m => S (ix2 r m)) :=
  rowMax_apply S _ _ r

theorem weightMat_apply (S : FVec Ideal S512x4096 .f32) (r : Fin 512) (m : Fin 4096) :
    weightMat S (ix2 r m)
      = Ideal.exp (S (ix2 r m) - (Finset.univ : Finset (Fin 4096)).fold max (⊥ : EReal) (fun m => S (ix2 r m))) := by
  unfold weightMat
  rw [exp_apply, subf_apply, broadcastTo_a1_ab_apply, shapeCast_a_a1_apply, rowMaxVec_apply]

theorem rowSumVec_apply (P : FVec Ideal S512x4096 .f32) (r : Fin 512) :
    rowSumVec P (ix1 r) = ∑ m : Fin 4096, P (ix2 r m) :=
  rowSum_apply P _ _ r

theorem mixMat_apply (P : FVec Ideal S512x4096 .f32) (vv : FVec Ideal S1x4096x256 .bf16) (r : Fin 512) (e : Fin 256) :
    mixMat P vv (ix2 r e)
      = Ideal.div (∑ m : Fin 4096, P (ix2 r m) * vv (ix3 (0 : Fin 1) m e)) (∑ m : Fin 4096, P (ix2 r m)) := by
  unfold mixMat
  rw [divf_apply, mixProduct_apply, broadcastTo_a1_ab_apply, shapeCast_a_a1_apply, rowSumVec_apply]
  simp only [truncf_apply, shapeCast_1ab_ab_apply]

/-- The mix of the weights of the scores, at (r, e), is the row's attention mix. -/
theorem mix_apply (q : FVec Ideal S1x512x32 .f32) (kT : FVec Ideal S1x32x4096 .f32) (vv : FVec Ideal S1x4096x256 .bf16)
    (r : Fin 512) (e : Fin 256) :
    mixMat (weightMat (scoreMat q kT)) vv (ix2 r e)
      = mixRow (fun k => q (ix3 (0 : Fin 1) r k)) (fun m k => kT (ix3 (0 : Fin 1) k m)) (fun m e => vv (ix3 (0 : Fin 1) m e)) e := by
  rw [mixMat_apply]
  simp only [weightMat_apply, scoreMat_apply]
  rfl

/-! ## The stored block at an entry -/

/-- Row r, channel d of what a point stores: the pixel plus the last linear map of the row's mix. -/
theorem attnBlock_apply (q : FVec Ideal S1x512x32 .f32) (kT : FVec Ideal S1x32x4096 .f32) (vv : FVec Ideal S1x4096x256 .bf16)
    (Wv : FVec Ideal S256x256 .f32) (bv : FVec Ideal S256 .f32) (px : FVec Ideal S1x512x256 .f32) (r : Fin 512) (d : Fin 256) :
    k1_pay1 (F := Ideal) q kT vv Wv bv px (ix3 (0 : Fin 1) r d)
      = px (ix3 (0 : Fin 1) r d)
        + ((∑ e : Fin 256, mixRow (fun k => q (ix3 (0 : Fin 1) r k)) (fun m k => kT (ix3 (0 : Fin 1) k m))
              (fun m e => vv (ix3 (0 : Fin 1) m e)) e * Wv (ix2 e d)) + bv (ix1 d)) := by
  rw [stored_eq, shapeCast_ab_1ab_apply, addf_apply, shapeCast_1ab_ab_apply, addf_apply, lastProduct_apply,
    broadcastTo_1b_ab_apply, shapeCast_a_1a_apply]
  simp only [truncf_apply, mix_apply]

end Cert.KernelIdeal.AttnValue

end
-- ==== Proof.AttnArrays.lean ====
/-
  The attention kernel's output array, whole.

  The grid has 4 × 8 points: point (b, i) takes query rows 512·i … 512·i + 511 of image b, the WHOLE key and value arrays
  of image b, the matching pixel rows, and writes the same rows of the [4, 4096, 256] output.  What it writes back is
  the block of one function `outRow` of the arrays the kernel was entered with, and the 32 blocks tile the output.
-/
import proofs.«170908_j2379411882220_2_alg».proof.Proof.Gen.KernelIdeal.Frame
import proofs.«170908_j2379411882220_2_alg».proof.Proof.AttnPayload
import Idealize.ShloMosaic.Lib.Pipeline.Value

set_option maxRecDepth 16384

noncomputable section

open scoped BigOperators

namespace Cert.KernelIdeal.AttnValue

open Cert.KernelIdeal Cert.KernelIdeal.Gen Idealize.ShloMosaic Idealize.ShloMosaic.ValueIdx Idealize.ShloMosaic.TcCoe
open Idealize.SL.Sem
open Idealize.ShloMosaic.Pipeline (Dat Cfg Window)

theorem mixRow_congr {q q' : Fin 32 → EReal} {kk kk' : Fin 4096 → Fin 32 → EReal} {vv vv' : Fin 4096 → Fin 256 → EReal}
    (h1 : ∀ k, q k = q' k) (h2 : ∀ m k, kk m k = kk' m k) (h3 : ∀ m e, vv m e = vv' m e) (e : Fin 256) :
    mixRow q kk vv e = mixRow q' kk' vv' e := by
  rw [funext h1, funext fun m => funext (h2 m), funext fun m => funext (h3 m)]

/-- Entry (b, n, d) of the output from the arrays the kernel is entered with: the pixel plus the last linear map of the
    mix of row n's attention over image b's keys and values. -/
def outRow (x : S4x4096x256.Idx → EReal) (g : S4x4096x32.Idx → EReal) (fT : S4x32x4096.Idx → EReal)
    (hv : S4x4096x256.Idx → EReal) (Wv : S256x256.Idx → EReal) (bv : S256.Idx → EReal)
    (b : Fin 4) (n : Fin 4096) (d : Fin 256) : EReal :=
  x (ix3 b n d)
    + ((∑ e : Fin 256, mixRow (fun k => g (ix3 b n k)) (fun m k => fT (ix3 b k m)) (fun m e => hv (ix3 b m e)) e * Wv (ix2 e d))
        + bv (ix1 d))

def outArr (x : S4x4096x256.Idx → EReal) (g : S4x4096x32.Idx → EReal) (fT : S4x32x4096.Idx → EReal)
    (hv : S4x4096x256.Idx → EReal) (Wv : S256x256.Idx → EReal) (bv : S256.Idx → EReal) : S4x4096x256.Idx → EReal :=
  fun i => outRow x g fT hv Wv bv (i 0) (i 1) (i 2)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps over the 32 grid points: the query, pixel and output blocks move together; the key and value
    blocks follow the image only; the last map's weights stay; the block numbers stay in range. -/
theorem idx_facts : ∀ t : Fin cfg1.N,
    win1_0.index t (0 : Fin 3) = win1_6.index t (0 : Fin 3) ∧ win1_0.index t (1 : Fin 3) = win1_6.index t (1 : Fin 3)
    ∧ win1_0.index t (2 : Fin 3) = 0
    ∧ win1_1.index t (0 : Fin 3) = win1_6.index t (0 : Fin 3) ∧ win1_1.index t (1 : Fin 3) = 0 ∧ win1_1.index t (2 : Fin 3) = 0
    ∧ win1_2.index t (0 : Fin 3) = win1_6.index t (0 : Fin 3) ∧ win1_2.index t (1 : Fin 3) = 0 ∧ win1_2.index t (2 : Fin 3) = 0
    ∧ win1_3.index t (0 : Fin 3) = win1_6.index t (0 : Fin 3) ∧ win1_3.index t (1 : Fin 3) = win1_6.index t (1 : Fin 3)
    ∧ win1_3.index t (2 : Fin 3) = 0
    ∧ win1_4.index t (0 : Fin 2) = 0 ∧ win1_4.index t (1 : Fin 2) = 0 ∧ win1_5.index t (0 : Fin 1) = 0
    ∧ win1_6.index t (2 : Fin 3) = 0 ∧ win1_6.index t (0 : Fin 3) ≤ 3 ∧ win1_6.index t (1 : Fin 3) ≤ 7 :=
  (by decide +kernel : ∀ t : Fin grid1.N, _)

theorem idx_onto : ∀ (q0 : Fin 4) (q1 : Fin 8), ∃ t : Fin cfg1.N,
    win1_6.index t (0 : Fin 3) = q0.val ∧ win1_6.index t (1 : Fin 3) = q1.val :=
  (by decide +kernel : ∀ (q0 : Fin 4) (q1 : Fin 8), ∃ t : Fin grid1.N, win1_6.index t (0 : Fin 3) = q0.val ∧ win1_6.index t (1 : Fin 3) = q1.val)

variable (V : (c : Dev nD) → (b : Ref sig .tc) → Buf (Elt Ideal) ((c : Thread nD τ).loc b))

theorem read_queries (c : Dev nD) (t : Fin cfg1.N) (r : Fin 512) (k : Fin 32) (i : S4x4096x32.Idx)
    (h0 : (i 0).val = win1_6.index t (0 : Fin 3)) (h1 : (i 1).val = win1_6.index t (1 : Fin 3) * 512 + r.val)
    (h2 : (i 2).val = k.val) : iblk1 V c 0 t (ix3 (0 : Fin 1) r k) = V c main_v1_1 i := by
  obtain ⟨e0, e1, e2, -⟩ := idx_facts t
  show V c main_v1_1 (((cfg1.win 0).blk t).view.emb (ix3 (0 : Fin 1) r k)) = V c main_v1_1 i
  refine congrArg (V c main_v1_1) (funext fun a => Fin.ext ?_)
  match a with
  | ⟨0, _⟩ => show win1_0.index t (0 : Fin 3) * 1 + 1 * 0 = (i 0).val; omega
  | ⟨1, _⟩ => show win1_0.index t (1 : Fin 3) * 512 + 1 * r.val = (i 1).val; omega
  | ⟨2, _⟩ => show win1_0.index t (2 : Fin 3) * 32 + 1 * k.val = (i 2).val; omega

theorem read_keys (c : Dev nD) (t : Fin cfg1.N) (k : Fin 32) (m : Fin 4096) (i : S4x32x4096.Idx)
    (h0 : (i 0).val = win1_6.index t (0 : Fin 3)) (h1 : (i 1).val = k.val) (h2 : (i 2).val = m.val) :
    iblk1 V c 1 t (ix3 (0 : Fin 1) k m) = V c main_v1_0 i := by
  obtain ⟨-, -, -, e0, e1, e2, -⟩ := idx_facts t
  show V c main_v1_0 (((cfg1.win 1).blk t).view.emb (ix3 (0 : Fin 1) k m)) = V c main_v1_0 i
  refine congrArg (V c main_v1_0) (funext fun a => Fin.ext ?_)
  match a with
  | ⟨0, _⟩ => show win1_1.index t (0 : Fin 3) * 1 + 1 * 0 = (i 0).val; omega
  | ⟨1, _⟩ => show win1_1.index t (1 : Fin 3) * 32 + 1 * k.val = (i 1).val; omega
  | ⟨2, _⟩ => show win1_1.index t (2 : Fin 3) * 4096 + 1 * m.val = (i 2).val; omega

theorem read_values (c : Dev nD) (t : Fin cfg1.N) (m : Fin 4096) (e : Fin 256) (i : S4x4096x256.Idx)
    (h0 : (i 0).val = win1_6.index t (0 : Fin 3)) (h1 : (i 1).val = m.val) (h2 : (i 2).val = e.val) :
    iblk1 V c 2 t (ix3 (0 : Fin 1) m e) = V c main_v1_2 i := by
  obtain ⟨-, -, -, -, -, -, e0, e1, e2, -⟩ := idx_facts t
  show V c main_v1_2 (((cfg1.win 2).blk t).view.emb (ix3 (0 : Fin 1) m e)) = V c main_v1_2 i
  refine congrArg (V c main_v1_2) (funext fun a => Fin.ext ?_)
  match a with
  | ⟨0, _⟩ => show win1_2.index t (0 : Fin 3) * 1 + 1 * 0 = (i 0).val; omega
  | ⟨1, _⟩ => show win1_2.index t (1 : Fin 3) * 4096 + 1 * m.val = (i 1).val; omega
  | ⟨2, _⟩ => show win1_2.index t (2 : Fin 3) * 256 + 1 * e.val = (i 2).val; omega

theorem read_pixels (c : Dev nD) (t : Fin cfg1.N) (r : Fin 512) (d : Fin 256) (i : S4x4096x256.Idx)
    (h0 : (i 0).val = win1_6.index t (0 : Fin 3)) (h1 : (i 1).val = win1_6.index t (1 : Fin 3) * 512 + r.val)
    (h2 : (i 2).val = d.val) : iblk1 V c 3 t (ix3 (0 : Fin 1) r d) = V c main_v0 i := by
  obtain ⟨-, -, -, -, -, -, -, -, -, e0, e1, e2, -⟩ := idx_facts t
  show V c main_v0 (((cfg1.win 3).blk t).view.emb (ix3 (0 : Fin 1) r d)) = V c main_v0 i
  refine congrArg (V c main_v0) (funext fun a => Fin.ext ?_)
  match a with
  | ⟨0, _⟩ => show win1_3.index t (0 : Fin 3) * 1 + 1 * 0 = (i 0).val; omega
  | ⟨1, _⟩ => show win1_3.index t (1 : Fin 3) * 512 + 1 * r.val = (i 1).val; omega
  | ⟨2, _⟩ => show win1_3.index t (2 : Fin 3) * 256 + 1 * d.val = (i 2).val; omega

theorem read_Wv (c : Dev nD) (t : Fin cfg1.N) (e : Fin 256) (d : Fin 256) :
    iblk1 V c 4 t (ix2 e d) = V c main_arg7 (ix2 e d) := by
  obtain ⟨-, -, -, -, -, -, -, -, -, -, -, -, e0, e1, -⟩ := idx_facts t
  show V c main_arg7 (((cfg1.win 4).blk t).view.emb (ix2 e d)) = V c main_arg7 (ix2 e d)
  refine congrArg (V c main_arg7) (funext fun a => Fin.ext ?_)
  match a with
  | ⟨0, _⟩ => show win1_4.index t (0 : Fin 2) * 256 + 1 * e.val = e.val; omega
  | ⟨1, _⟩ => show win1_4.index t (1 : Fin 2) * 256 + 1 * d.val = d.val; omega

theorem read_bv (c : Dev nD) (t : Fin cfg1.N) (d : Fin 256) :
    iblk1 V c 5 t (ix1 d) = V c main_arg8 (ix1 d) := by
  obtain ⟨-, -, -, -, -, -, -, -, -, -, -, -, -, -, e0, -⟩ := idx_facts t
  show V c main_arg8 (((cfg1.win 5).blk t).view.emb (ix1 d)) = V c main_arg8 (ix1 d)
  refine congrArg (V c main_arg8) (funext fun a => Fin.ext ?_)
  match a with
  | ⟨0, _⟩ => show win1_5.index t (0 : Fin 1) * 256 + 1 * d.val = d.val; omega

/-- What a point writes back is the block of `outArr` of the entry arrays. -/
theorem flushedOut_eq (c : Dev nD) (t : Fin cfg1.N) :
    (dat1 V c).flushed 6 t = ((cfg1.win 6).blk t).view.read (Elt Ideal)
      (outArr (V c main_v0) (V c main_v1_1) (V c main_v1_0) (V c main_v1_2) (V c main_arg7) (V c main_arg8)) := by
  show (cfg1.win 6).cut (grid1.coords t) ((dat1 V c).after 6 t) = _
  rw [after1_6]
  unfold out1_6
  rw [View.canon_unit_zero hz3]
  simp only [View.ld_unit_zero (S := S1x512x32) hz3, View.ld_unit_zero (S := S1x32x4096) hz3,
    View.ld_unit_zero (S := S1x4096x256) hz3, View.ld_unit_zero (S := S1x512x256) hz3,
    View.ld_unit_zero (S := S256x256) hz2, View.ld_unit_zero (S := S256) hz1]
  funext j
  obtain ⟨u, r, d, rfl⟩ : ∃ (u : Fin 1) (r : Fin 512) (d : Fin 256), j = ix3 u r d := ⟨j 0, j 1, j 2, eq_ix3 j⟩
  obtain rfl : u = 0 := Subsingleton.elim _ _
  obtain ⟨-, -, -, -, -, -, -, -, -, -, -, -, -, -, -, e15, -⟩ := idx_facts t
  refine (attnBlock_apply (iblk1 V c 0 t) (iblk1 V c 1 t) (iblk1 V c 2 t) (iblk1 V c 4 t) (iblk1 V c 5 t) (iblk1 V c 3 t) r d).trans ?_
  show _ = outRow (V c main_v0) (V c main_v1_1) (V c main_v1_0) (V c main_v1_2) (V c main_arg7) (V c main_arg8)
      ((((cfg1.win 6).blk t).view.emb (ix3 (0 : Fin 1) r d)) 0) ((((cfg1.win 6).blk t).view.emb (ix3 (0 : Fin 1) r d)) 1)
      ((((cfg1.win 6).blk t).view.emb (ix3 (0 : Fin 1) r d)) 2)
  have hd : ((((cfg1.win 6).blk t).view.emb (ix3 (0 : Fin 1) r d)) 2 : Fin 256) = d :=
    Fin.ext (show win1_6.index t (2 : Fin 3) * 256 + 1 * d.val = d.val by omega)
  rw [hd]
  unfold outRow
  have hb : ((((cfg1.win 6).blk t).view.emb (ix3 (0 : Fin 1) r d)) 0).val = win1_6.index t (0 : Fin 3) :=
    show win1_6.index t (0 : Fin 3) * 1 + 1 * 0 = win1_6.index t (0 : Fin 3) by omega
  have hn : ((((cfg1.win 6).blk t).view.emb (ix3 (0 : Fin 1) r d)) 1).val = win1_6.index t (1 : Fin 3) * 512 + r.val :=
    show win1_6.index t (1 : Fin 3) * 512 + 1 * r.val = win1_6.index t (1 : Fin 3) * 512 + r.val by omega
  rw [read_bv V c t d]
  refine congrArg₂ (· + ·) ?_ (congrArg (· + _) (Finset.sum_congr rfl fun e _ => ?_))
  · exact read_pixels V c t r d _ hb hn rfl
  rw [read_Wv V c t e d]
  refine congrArg (· * _) (mixRow_congr ?_ ?_ ?_ e)
  · intro k; exact read_queries V c t r k _ hb hn rfl
  · intro m k; exact read_keys V c t k m _ hb rfl rfl
  · intro m e'; exact read_values V c t m e' _ hb rfl rfl

theorem mem_blkOut (t : Fin cfg1.N) (i : S4x4096x256.Idx) :
    i ∈ ((cfg1.win 6).blk t).view.set ↔ ∀ a : Fin 3, win1_6.index t a * S1x512x256.size a ≤ (i a).val
      ∧ (i a).val < win1_6.index t a * S1x512x256.size a + S1x512x256.size a := by
  show i ∈ ((View.whole main_v2).slice (win1_6.rect t)).set ↔ _
  rw [View.set_slice_whole, Rect.mem_set_unit]
  exact Iff.rfl

theorem coverOut (i : S4x4096x256.Idx) :
    ∃ t : Fin cfg1.N, (cfg1.win 6).flush t = true ∧ i ∈ ((cfg1.win 6).blk t).view.set := by
  have h0 : (i 0).val < 4 := (i 0).isLt
  have h1 : (i 1).val < 4096 := (i 1).isLt
  have h2 : (i 2).val < 256 := (i 2).isLt
  obtain ⟨t, q0, q1⟩ := idx_onto ⟨(i 0).val, h0⟩ ⟨(i 1).val / 512, by omega⟩
  obtain ⟨-, -, -, -, -, -, -, -, -, -, -, -, -, -, -, e15, -⟩ := idx_facts t
  refine ⟨t, flush1_6 t, ?_⟩
  rw [mem_blkOut]
  intro a
  match a with
  | ⟨0, _⟩ => show win1_6.index t (0 : Fin 3) * 1 ≤ (i 0).val ∧ (i 0).val < win1_6.index t (0 : Fin 3) * 1 + 1; simp only at q0; omega
  | ⟨1, _⟩ => show win1_6.index t (1 : Fin 3) * 512 ≤ (i 1).val ∧ (i 1).val < win1_6.index t (1 : Fin 3) * 512 + 512; simp only at q1; omega
  | ⟨2, _⟩ => show win1_6.index t (2 : Fin 3) * 256 ≤ (i 2).val ∧ (i 2).val < win1_6.index t (2 : Fin 3) * 256 + 256; omega

/-- The output array after the kernel. -/
theorem finalOut (c : Dev nD) :
    (dat1 V c).arrAt 6 cfg1.N
      = outArr (V c main_v0) (V c main_v1_1) (V c main_v1_0) (V c main_v1_2) (V c main_arg7) (V c main_arg8) :=
  (dat1 V c).arrAt_eq_of_cover 6 _ (fun t _ => flushedOut_eq V c t) coverOut

end Cert.KernelIdeal.AttnValue

end
-- ==== Proof.KernelValue.lean ====
/-
  The result buffer of the whole program, as the specification's array.

  Reading the segments' fold backwards: the result is the attention kernel's output array cast to [4, 64, 64, 256]; that
  array is `outArr` of the arrays the attention kernel is entered with; of those, the key, query and value arrays are what
  the projection kernel left — `keyArr`, `queryArr`, `valueArr` of the flattened image batch and the weights —, the
  flattened image batch is as the first reshape made it, and the weights are as launched.  Entry (b, h, w, d) of the
  cast reads pixel h·64 + w of image b; pixel n of the flattened batch is row n / 64, column n % 64 of the image.  With
  these the per-pixel linear maps are the specification's keys, queries and values, one row's mix is the specification's
  mix with the division deferred, and the result is `Attn.out (Attn.mixDeferred A) A`.
-/
import proofs.«170908_j2379411882220_2_alg».proof.Proof.Gen.KernelIdeal.Frame
import proofs.«170908_j2379411882220_2_alg».proof.Proof.QkvArrays
import proofs.«170908_j2379411882220_2_alg».proof.Proof.AttnArrays
import proofs.«170908_j2379411882220_2_alg».proof.Proof.AttnSpec
import Idealize.ShloMosaic.Lib.StableHlo.Run
import Idealize.ShloMosaic.Lib.Pipeline.Value

set_option maxRecDepth 16384

noncomputable section

open scoped BigOperators

namespace Cert.KernelIdeal.Whole

open Cert.KernelIdeal Cert.KernelIdeal.Gen Idealize.ShloMosaic Idealize.ShloMosaic.ValueIdx Idealize.ShloMosaic.TcCoe
open Idealize.SL.Sem Idealize.ShloMosaic.StableHlo
open Cert.KernelIdeal.QkvValue Cert.KernelIdeal.AttnValue

/-- The image batch with its rows and columns flattened to 4096 pixels. -/
def flat (X : S4x64x64x256.Idx → EReal) : S4x4096x256.Idx → EReal :=
  shapeCast S4x4096x256 X shapeCasts_S4x64x64x256_S4x4096x256

/-- Pixel n of the flattened batch is row n / 64, column n % 64. -/
theorem flat_apply (X : S4x64x64x256.Idx → EReal) (b : Fin 4) (n : Fin 4096) (c : Fin 256) :
    flat X (ix3 b n c) = Cert.Attn.pix X b n c :=
  shapeCast_apply X shapeCasts_S4x64x64x256_S4x4096x256 _ _ (by
    rw [Shape.rowMajor_val_four, Shape.rowMajor_val_three]
    show ((b.val * 64 + n.val / 64) * 64 + n.val % 64) * 256 + c.val = (b.val * 4096 + n.val) * 256 + c.val
    omega)

/-- Entry (b, h, w, d) of a [4, 4096, 256] array cast to [4, 64, 64, 256] is its pixel h·64 + w. -/
theorem unflat_apply (Y : S4x4096x256.Idx → EReal) (b : Fin 4) (h w : Fin 64) (d : Fin 256) :
    shapeCast S4x64x64x256 Y shapeCasts_S4x4096x256_S4x64x64x256 (ix4 b h w d) = Y (ix3 b (Cert.Attn.pixOf h w) d) :=
  shapeCast_apply Y shapeCasts_S4x4096x256_S4x64x64x256 _ _ (by
    rw [Shape.rowMajor_val_three, Shape.rowMajor_val_four]
    show (b.val * 4096 + (h.val * 64 + w.val)) * 256 + d.val = ((b.val * 64 + h.val) * 64 + w.val) * 256 + d.val
    omega)

/-- A per-pixel linear map of the flattened batch is the specification's. -/
theorem rowLin_flat {K : Nat} (X : S4x64x64x256.Idx → EReal) (W : (⟨2, ![256, K]⟩ : Shape).Idx → EReal)
    (β : (⟨1, ![K]⟩ : Shape).Idx → EReal) (b : Fin 4) (n : Fin 4096) (k : Fin K) :
    rowLin (flat X) W β b n k = Cert.Attn.proj X W β b n k := by
  unfold rowLin Cert.Attn.proj
  exact congrArg (· + _) (Finset.sum_congr rfl fun c _ => congrArg (· * _) (flat_apply X b n c))

/-- One row's mix over the specification's keys, queries and values is the specification's deferred mix. -/
theorem mixRow_spec (A : Cert.Attn.Args) (b : Fin 4) (n : Fin 4096) (e : Fin 256) :
    mixRow (Cert.Attn.query A b n) (Cert.Attn.key A b) (Cert.Attn.value A b) e = Cert.Attn.mixDeferred A b n e := rfl

/-- The attention kernel's output over what the projection kernel leaves of the flattened batch, cast back, is the
    specification's result with the deferred mix. -/
theorem cast_outArr_eq (A : Cert.Attn.Args) :
    shapeCast S4x64x64x256
        (outArr (flat A.X) (queryArr (flat A.X) A.Wg A.bg) (keyArr (flat A.X) A.Wf A.bf) (valueArr (flat A.X) A.Wh A.bh) A.Wv A.bv)
        shapeCasts_S4x4096x256_S4x64x64x256
      = Cert.Attn.out (Cert.Attn.mixDeferred A) A := by
  funext i
  obtain ⟨b, h, w, d, rfl⟩ : ∃ (b : Fin 4) (h w : Fin 64) (d : Fin 256), i = ix4 b h w d := ⟨i 0, i 1, i 2, i 3, eq_ix4 i⟩
  rw [unflat_apply]
  show outRow (flat A.X) (queryArr (flat A.X) A.Wg A.bg) (keyArr (flat A.X) A.Wf A.bf) (valueArr (flat A.X) A.Wh A.bh) A.Wv A.bv
      b (Cert.Attn.pixOf h w) d = Cert.Attn.outAt (Cert.Attn.mixDeferred A) A b h w d
  unfold outRow Cert.Attn.outAt
  rw [flat_apply]
  unfold Cert.Attn.pix
  rw [Cert.Attn.prow_pixOf, Cert.Attn.pcol_pixOf]
  refine congrArg (_ + ·) (congrArg (· + _) (Finset.sum_congr rfl fun e _ => congrArg (· * _) ?_))
  rw [← mixRow_spec]
  exact mixRow_congr (fun k => rowLin_flat A.X A.Wg A.bg b _ k) (fun m k => rowLin_flat A.X A.Wf A.bf b m k)
    (fun m e' => rowLin_flat A.X A.Wh A.bh b m e') e

/-! ## The segments' fold, read back -/

variable (m : (ℓ : Loc nD τ sig) → Buf (Elt Ideal) ℓ) (ρ : Dev nD → PrngReg)

/-- The nine arguments as the specification takes them. -/
def argsOf (c : Dev nD) : Cert.Attn.Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8)⟩

theorem V1_pixels (c : Dev nD) : V1 m ρ c main_v0 = flat (argsOf m c).X := by
  show StableHlo.after hostOps0 (W0 m ρ c) (Proc.devRef .tc main_v0) = _
  after_results
  rfl

theorem V1_arg1 (c : Dev nD) : V1 m ρ c main_arg1 = (argsOf m c).Wf := by
  show StableHlo.after hostOps0 (W0 m ρ c) (Proc.devRef .tc main_arg1) = _
  after_results
  rfl
theorem V1_arg2 (c : Dev nD) : V1 m ρ c main_arg2 = (argsOf m c).bf := by
  show StableHlo.after hostOps0 (W0 m ρ c) (Proc.devRef .tc main_arg2) = _
  after_results
  rfl
theorem V1_arg3 (c : Dev nD) : V1 m ρ c main_arg3 = (argsOf m c).Wg := by
  show StableHlo.after hostOps0 (W0 m ρ c) (Proc.devRef .tc main_arg3) = _
  after_results
  rfl
theorem V1_arg4 (c : Dev nD) : V1 m ρ c main_arg4 = (argsOf m c).bg := by
  show StableHlo.after hostOps0 (W0 m ρ c) (Proc.devRef .tc main_arg4) = _
  after_results
  rfl
theorem V1_arg5 (c : Dev nD) : V1 m ρ c main_arg5 = (argsOf m c).Wh := by
  show StableHlo.after hostOps0 (W0 m ρ c) (Proc.devRef .tc main_arg5) = _
  after_results
  rfl
theorem V1_arg6 (c : Dev nD) : V1 m ρ c main_arg6 = (argsOf m c).bh := by
  show StableHlo.after hostOps0 (W0 m ρ c) (Proc.devRef .tc main_arg6) = _
  after_results
  rfl
theorem V1_arg7 (c : Dev nD) : V1 m ρ c main_arg7 = (argsOf m c).Wv := by
  show StableHlo.after hostOps0 (W0 m ρ c) (Proc.devRef .tc main_arg7) = _
  after_results
  rfl
theorem V1_arg8 (c : Dev nD) : V1 m ρ c main_arg8 = (argsOf m c).bv := by
  show StableHlo.after hostOps0 (W0 m ρ c) (Proc.devRef .tc main_arg8) = _
  after_results
  rfl

/-- What the attention kernel is entered with. -/
theorem V2_keys (c : Dev nD) : V2 m ρ c main_v1_0 = keyArr (flat (argsOf m c).X) (argsOf m c).Wf (argsOf m c).bf := by
  rw [← V1_pixels m ρ c, ← V1_arg1 m ρ c, ← V1_arg2 m ρ c]
  exact (W2_arr m ρ c 7).trans (finalKeys (V1 m ρ) c)
theorem V2_queries (c : Dev nD) : V2 m ρ c main_v1_1 = queryArr (flat (argsOf m c).X) (argsOf m c).Wg (argsOf m c).bg := by
  rw [← V1_pixels m ρ c, ← V1_arg3 m ρ c, ← V1_arg4 m ρ c]
  exact (W2_arr m ρ c 8).trans (finalQueries (V1 m ρ) c)
theorem V2_values (c : Dev nD) : V2 m ρ c main_v1_2 = valueArr (flat (argsOf m c).X) (argsOf m c).Wh (argsOf m c).bh := by
  rw [← V1_pixels m ρ c, ← V1_arg5 m ρ c, ← V1_arg6 m ρ c]
  exact (W2_arr m ρ c 9).trans (finalValues (V1 m ρ) c)
theorem V2_pixels (c : Dev nD) : V2 m ρ c main_v0 = flat (argsOf m c).X :=
  ((W2_arr m ρ c 0).trans (((dat0 (V1 m ρ) c).arrAt_in 0 rfl _).trans (A_eq0 (V1 m ρ) c 0))).trans (V1_pixels m ρ c)
theorem V2_arg7 (c : Dev nD) : V2 m ρ c main_arg7 = (argsOf m c).Wv :=
  (W2_of_ne m ρ c main_arg7 (by decide)).trans (V1_arg7 m ρ c)
theorem V2_arg8 (c : Dev nD) : V2 m ρ c main_arg8 = (argsOf m c).bv :=
  (W2_of_ne m ρ c main_arg8 (by decide)).trans (V1_arg8 m ρ c)

/-- The result buffer at the last boundary is the specification's result with the deferred mix. -/
theorem result_eq (c : Dev nD) :
    W4 m ρ c (Proc.devRef .tc main_v3) = Cert.Attn.out (Cert.Attn.mixDeferred (argsOf m c)) (argsOf m c) := by
  have e : W4 m ρ c (Proc.devRef .tc main_v3)
      = shapeCast S4x64x64x256 (W3 m ρ c (Proc.devRef .tc main_v2)) shapeCasts_S4x4096x256_S4x64x64x256 := by
    show StableHlo.after hostOps2 (W3 m ρ c) (Proc.devRef .tc main_v3) = _
    after_results
    rfl
  rw [e, W3_arr m ρ c 6, finalOut (V2 m ρ) c, V2_pixels, V2_queries, V2_keys, V2_values, V2_arg7, V2_arg8]
  exact cast_outArr_eq (argsOf m c)

end Cert.KernelIdeal.Whole

end
-- ==== Proof.RefIsSpec.lean ====
/-
  The reference program, read at an index, is the attention specification with the normalised mix.

  Stage by stage: the three per-pixel linear maps `x · W + b` computed on the image and flattened to 4096 pixels per image
  (pixel `m` is row `m / 64`, column `m % 64`) are the specification's keys, queries and values; the batched product of
  queries and keys is the score; the maximum-reduce from `-∞` over the last axis is the fold of `max` from `⊥` over a row,
  and taking the maximum of that with `-∞` again changes nothing; the exponential of the score less the row maximum is the
  weight; the add-reduce from zero is the row sum; the quotient is the normalised weight; the batched product with the values
  is the normalised mix; reshaped back to the image (pixel `64 h + w` at row `h`, column `w`), mapped linearly once more and
  added to the input it is the result.
-/
import proofs.«170908_j2379411882220_2_alg».proof.Proof.Gen.ReferenceIdeal.Read
import proofs.«170908_j2379411882220_2_alg».proof.Proof.AttnSpec
import Idealize.ShloMosaic.PureOps.Reduce
import Idealize.ShloMosaic.PureOps.Ideal.Laws
import Idealize.ShloMosaic.Lib.ValueIdx

noncomputable section

open scoped BigOperators

namespace Cert.ReferenceIdeal.RefValue

open Cert.ReferenceIdeal Cert.ReferenceIdeal.Read Idealize.ShloMosaic Idealize.ShloMosaic.ValueIdx Cert.Attn

variable (x0 : (⟨S4x64x64x256, .f32⟩ : BufTy).Contents (Elt Ideal)) (x1 : (⟨S256x32, .f32⟩ : BufTy).Contents (Elt Ideal))
  (x2 : (⟨S32, .f32⟩ : BufTy).Contents (Elt Ideal)) (x3 : (⟨S256x32, .f32⟩ : BufTy).Contents (Elt Ideal))
  (x4 : (⟨S32, .f32⟩ : BufTy).Contents (Elt Ideal)) (x5 : (⟨S256x256, .f32⟩ : BufTy).Contents (Elt Ideal))
  (x6 : (⟨S256, .f32⟩ : BufTy).Contents (Elt Ideal)) (x7 : (⟨S256x256, .f32⟩ : BufTy).Contents (Elt Ideal))
  (x8 : (⟨S256, .f32⟩ : BufTy).Contents (Elt Ideal))

/-- The nine arrays as the specification's argument record. -/
abbrev args : Cert.Attn.Args := ⟨x0, x1, x2, x3, x4, x5, x6, x7, x8⟩

/-! ## Flattening the pixel grid: where a flat pixel sits in the image -/

/-- Element `(b, m, k)` of the flattened 32-wide array is element `(b, m / 64, m % 64, k)` of the image-shaped one. -/
theorem flat32 (b : Fin 4) (m : Fin 4096) (k : Fin 32) : idx_main_v4 (ix3 b m k) = ix4 b (prow m) (pcol m) k := by
  have hb := b.isLt; have hm := m.isLt; have hk := k.isLt
  funext a
  match a with
  | ⟨0, _⟩ => exact Fin.ext (by show ((b.val * 4096 + m.val) * 32 + k.val) / 131072 = b.val; omega)
  | ⟨1, _⟩ => exact Fin.ext (by show ((b.val * 4096 + m.val) * 32 + k.val) / 2048 % 64 = m.val / 64; omega)
  | ⟨2, _⟩ => exact Fin.ext (by show ((b.val * 4096 + m.val) * 32 + k.val) / 32 % 64 = m.val % 64; omega)
  | ⟨3, _⟩ => exact Fin.ext (by show ((b.val * 4096 + m.val) * 32 + k.val) % 32 = k.val; omega)

/-- The same for the 256-wide array. -/
theorem flat256 (b : Fin 4) (m : Fin 4096) (d : Fin 256) : idx_main_v14 (ix3 b m d) = ix4 b (prow m) (pcol m) d := by
  have hb := b.isLt; have hm := m.isLt; have hd := d.isLt
  funext a
  match a with
  | ⟨0, _⟩ => exact Fin.ext (by show ((b.val * 4096 + m.val) * 256 + d.val) / 1048576 = b.val; omega)
  | ⟨1, _⟩ => exact Fin.ext (by show ((b.val * 4096 + m.val) * 256 + d.val) / 16384 % 64 = m.val / 64; omega)
  | ⟨2, _⟩ => exact Fin.ext (by show ((b.val * 4096 + m.val) * 256 + d.val) / 256 % 64 = m.val % 64; omega)
  | ⟨3, _⟩ => exact Fin.ext (by show ((b.val * 4096 + m.val) * 256 + d.val) % 256 = d.val; omega)

/-- Going back: element `(b, h, w, d)` of the image-shaped mix is element `(b, 64 h + w, d)` of the flat one. -/
theorem unflat256 (b : Fin 4) (h w : Fin 64) (d : Fin 256) : idx_main_v28 (ix4 b h w d) = ix3 b (pixOf h w) d := by
  have hb := b.isLt; have hh := h.isLt; have hw := w.isLt; have hd := d.isLt
  funext a
  match a with
  | ⟨0, _⟩ => exact Fin.ext (by show (((b.val * 64 + h.val) * 64 + w.val) * 256 + d.val) / 1048576 = b.val; omega)
  | ⟨1, _⟩ => exact Fin.ext (by show (((b.val * 64 + h.val) * 64 + w.val) * 256 + d.val) / 256 % 4096 = h.val * 64 + w.val; omega)
  | ⟨2, _⟩ => exact Fin.ext (by show (((b.val * 64 + h.val) * 64 + w.val) * 256 + d.val) % 256 = d.val; omega)

/-! ## The three per-pixel linear maps -/

/-- The keys: `f = x · Wf + bf`, flattened. -/
theorem key_read (b : Fin 4) (m : Fin 4096) (k : Fin 32) :
    val_main_v4 (F := Ideal) x0 x1 x2 (ix3 b m k) = key (args x0 x1 x2 x3 x4 x5 x6 x7 x8) b m k := by
  rw [val_main_v4_apply, val_main_v3_apply, val_main_v0_apply, val_main_v2_apply, val_main_v1_apply, flat32]
  refine congrArg₂ (· + ·) (Finset.sum_congr rfl fun c _ => congrArg₂ (· * ·) (congrArg x0 ?_) (congrArg x1 ?_)) (congrArg x2 ?_)
  · funext a; match a with | ⟨0, _⟩ => rfl | ⟨1, _⟩ => rfl | ⟨2, _⟩ => rfl | ⟨3, _⟩ => rfl
  · funext a; match a with | ⟨0, _⟩ => rfl | ⟨1, _⟩ => rfl
  · funext a; match a with | ⟨0, _⟩ => rfl

/-- The queries: `g = x · Wg + bg`, flattened. -/
theorem query_read (b : Fin 4) (n : Fin 4096) (k : Fin 32) :
    val_main_v9 (F := Ideal) x0 x3 x4 (ix3 b n k) = query (args x0 x1 x2 x3 x4 x5 x6 x7 x8) b n k := by
  rw [val_main_v9_apply, val_main_v8_apply, val_main_v5_apply, val_main_v7_apply, val_main_v6_apply]
  rw [show idx_main_v9 (ix3 b n k) = ix4 b (prow n) (pcol n) k from flat32 b n k]
  refine congrArg₂ (· + ·) (Finset.sum_congr rfl fun c _ => congrArg₂ (· * ·) (congrArg x0 ?_) (congrArg x3 ?_)) (congrArg x4 ?_)
  · funext a; match a with | ⟨0, _⟩ => rfl | ⟨1, _⟩ => rfl | ⟨2, _⟩ => rfl | ⟨3, _⟩ => rfl
  · funext a; match a with | ⟨0, _⟩ => rfl | ⟨1, _⟩ => rfl
  · funext a; match a with | ⟨0, _⟩ => rfl

/-- The values: `h = x · Wh + bh`, flattened. -/
theorem value_read (b : Fin 4) (m : Fin 4096) (d : Fin 256) :
    val_main_v14 (F := Ideal) x0 x5 x6 (ix3 b m d) = value (args x0 x1 x2 x3 x4 x5 x6 x7 x8) b m d := by
  rw [val_main_v14_apply, val_main_v13_apply, val_main_v10_apply, val_main_v12_apply, val_main_v11_apply, flat256]
  refine congrArg₂ (· + ·) (Finset.sum_congr rfl fun c _ => congrArg₂ (· * ·) (congrArg x0 ?_) (congrArg x5 ?_)) (congrArg x6 ?_)
  · funext a; match a with | ⟨0, _⟩ => rfl | ⟨1, _⟩ => rfl | ⟨2, _⟩ => rfl | ⟨3, _⟩ => rfl
  · funext a; match a with | ⟨0, _⟩ => rfl | ⟨1, _⟩ => rfl
  · funext a; match a with | ⟨0, _⟩ => rfl

/-! ## Scores, their row maximum, the weights and their row sum -/

/-- The score of pixel `n` against pixel `m`: the inner product of the query at `n` and the key at `m`. -/
theorem score_read (b : Fin 4) (n m : Fin 4096) :
    val_main_v15 (F := Ideal) x0 x1 x2 x3 x4 (ix3 b n m) = score (args x0 x1 x2 x3 x4 x5 x6 x7 x8) b n m := by
  rw [val_main_v15_apply]
  refine Finset.sum_congr rfl fun k _ => ?_
  rw [← query_read x0 x1 x2 x3 x4 x5 x6 x7 x8 b n k, ← key_read x0 x1 x2 x3 x4 x5 x6 x7 x8 b m k]
  refine congrArg₂ (· * ·) (congrArg _ ?_) (congrArg _ ?_)
  · funext a; match a with | ⟨0, _⟩ => rfl | ⟨1, _⟩ => rfl | ⟨2, _⟩ => rfl
  · funext a; match a with | ⟨0, _⟩ => rfl | ⟨1, _⟩ => rfl | ⟨2, _⟩ => rfl

/-- The word `0xFF800000` denotes `-∞`. -/
theorem negInf : Ideal.ofBits .f32 0xFF800000#32 = (⊥ : EReal) := by simp [Ideal.ofBits, Ideal.ieee]

/-- A maximum-reduce from `-∞` over the last axis of a `4 × 4096 × 4096` array, at `(b, n)`: the maximum of row `(b, n)`,
    as a fold of `max` from `⊥` over the 4096 columns. -/
theorem rowMax_of (y : (⟨S4x4096x4096, .f32⟩ : BufTy).Contents (Elt Ideal)) (h' : S4x4096x4096.ReducesTo [2] S4x4096)
    (hu : 0 < S_.numel) (b : Fin 4) (n : Fin 4096) :
    Host.reduce (FloatOps.maximumf (F := Ideal) (φ := .f32)) y (val_main_cst (F := Ideal)) h' hu (ix2 b n)
      = (Finset.univ : Finset (Fin 4096)).fold max (⊥ : EReal) (fun m => y (ix3 b n m)) := by
  have h : S4x4096x4096.Reduces [2] S4x4096 := by decide
  refine (Host.reduce_eq_fold_single (FloatOps.maximumf (F := Ideal) (φ := .f32)) y (val_main_cst (F := Ideal)) h' h hu (ix2 b n)).trans ?_
  have e0 : val_main_cst (F := Ideal) (Shape.Idx.first hu) = (⊥ : EReal) := negInf
  rw [e0]
  have hf : (y ∘ h.lift (ix2 b n)) = fun m : Fin 4096 => y (ix3 b n m) := funext fun m => congrArg y (funext fun a => Fin.ext (by
    match a with | ⟨0, _⟩ => rfl | ⟨1, _⟩ => rfl | ⟨2, _⟩ => rfl))
  exact congrArg (fun f => Finset.fold max (⊥ : EReal) f (Finset.univ : Finset (Fin 4096))) hf

/-- The row maximum the reference subtracts: the maximum of `-∞` and the reduced maximum, which is the reduced maximum. -/
theorem rowMax_read (b : Fin 4) (n : Fin 4096) :
    val_main_v18 (F := Ideal) x0 x1 x2 x3 x4 (ix2 b n) = rowMax (args x0 x1 x2 x3 x4 x5 x6 x7 x8) b n := by
  rw [val_main_v18_apply, val_main_v17_apply, val_main_cst_0_apply]
  unfold val_main_v16
  generalize hy : val_main_v15 (F := Ideal) x0 x1 x2 x3 x4 = y
  rw [rowMax_of y]
  rw [Ideal.ofBits_def, negInf, Ideal.maximumf_def, max_eq_right bot_le]
  unfold rowMax
  refine congrArg (fun f => Finset.fold max (⊥ : EReal) f (Finset.univ : Finset (Fin 4096))) (funext fun m => ?_)
  rw [← hy]; exact score_read x0 x1 x2 x3 x4 x5 x6 x7 x8 b n m

/-- The weight: the exponential of the score less its row maximum. -/
theorem weight_read (b : Fin 4) (n m : Fin 4096) :
    val_main_v22 (F := Ideal) x0 x1 x2 x3 x4 (ix3 b n m) = weight (args x0 x1 x2 x3 x4 x5 x6 x7 x8) b n m := by
  rw [val_main_v22_apply, val_main_v21_apply, val_main_v20_apply, val_main_v19_apply, score_read x0 x1 x2 x3 x4 x5 x6 x7 x8]
  rw [show idx_main_v19 (idx_main_v20 (ix3 b n m)) = ix2 b n from funext fun a => by match a with | ⟨0, _⟩ => rfl | ⟨1, _⟩ => rfl]
  rw [rowMax_read x0 x1 x2 x3 x4 x5 x6 x7 x8]
  rfl

/-- The row sum of the weights, from zero. -/
theorem rowSum_read (b : Fin 4) (n : Fin 4096) :
    val_main_v23 (F := Ideal) x0 x1 x2 x3 x4 (ix2 b n) = rowSum (args x0 x1 x2 x3 x4 x5 x6 x7 x8) b n := by
  rw [val_main_v23_apply, val_main_cst_1_apply, Ideal.ofBits_def, Ideal.ofBits_zero_f32, zero_add]
  refine Finset.sum_congr rfl fun m _ => ?_
  rw [← weight_read x0 x1 x2 x3 x4 x5 x6 x7 x8 b n m]
  exact congrArg _ (funext fun a => by match a with | ⟨0, _⟩ => rfl | ⟨1, _⟩ => rfl | ⟨2, _⟩ => rfl)

/-- The normalised weight: the weight divided by its row sum. -/
theorem normalized_read (b : Fin 4) (n m : Fin 4096) :
    val_main_v26 (F := Ideal) x0 x1 x2 x3 x4 (ix3 b n m)
      = Ideal.div (weight (args x0 x1 x2 x3 x4 x5 x6 x7 x8) b n m) (rowSum (args x0 x1 x2 x3 x4 x5 x6 x7 x8) b n) := by
  rw [val_main_v26_apply, val_main_v25_apply, val_main_v24_apply, weight_read x0 x1 x2 x3 x4 x5 x6 x7 x8]
  rw [show idx_main_v24 (idx_main_v25 (ix3 b n m)) = ix2 b n from funext fun a => by match a with | ⟨0, _⟩ => rfl | ⟨1, _⟩ => rfl]
  rw [rowSum_read x0 x1 x2 x3 x4 x5 x6 x7 x8]
  rfl

/-! ## The mix and the result -/

/-- The mix of the values with the normalised weights. -/
theorem mix_read (b : Fin 4) (n : Fin 4096) (d : Fin 256) :
    val_main_v27 (F := Ideal) x0 x1 x2 x3 x4 x5 x6 (ix3 b n d) = mixNormalized (args x0 x1 x2 x3 x4 x5 x6 x7 x8) b n d := by
  rw [val_main_v27_apply]
  refine Finset.sum_congr rfl fun m _ => ?_
  rw [← normalized_read x0 x1 x2 x3 x4 x5 x6 x7 x8 b n m, ← value_read x0 x1 x2 x3 x4 x5 x6 x7 x8 b m d]
  refine congrArg₂ (· * ·) (congrArg _ ?_) (congrArg _ ?_)
  · funext a; match a with | ⟨0, _⟩ => rfl | ⟨1, _⟩ => rfl | ⟨2, _⟩ => rfl
  · funext a; match a with | ⟨0, _⟩ => rfl | ⟨1, _⟩ => rfl | ⟨2, _⟩ => rfl

/-- The mix back in image shape. -/
theorem mixImage_read (b : Fin 4) (h w : Fin 64) (e : Fin 256) :
    val_main_v28 (F := Ideal) x0 x1 x2 x3 x4 x5 x6 (ix4 b h w e)
      = mixNormalized (args x0 x1 x2 x3 x4 x5 x6 x7 x8) b (pixOf h w) e := by
  rw [val_main_v28_apply, unflat256, mix_read x0 x1 x2 x3 x4 x5 x6 x7 x8]

/-- The result at `(b, h, w, d)`: the pixel plus the last linear map of its mix. -/
theorem out_read (b : Fin 4) (h w : Fin 64) (d : Fin 256) :
    val_main_v33 (F := Ideal) x0 x1 x2 x3 x4 x5 x6 x7 x8 (ix4 b h w d)
      = outAt (mixNormalized (args x0 x1 x2 x3 x4 x5 x6 x7 x8)) (args x0 x1 x2 x3 x4 x5 x6 x7 x8) b h w d := by
  rw [val_main_v33_apply, val_main_v32_apply, val_main_v29_apply, val_main_v31_apply, val_main_v30_apply]
  refine congrArg₂ (· + ·) rfl (congrArg₂ (· + ·) (Finset.sum_congr rfl fun e _ => ?_) (congrArg x8 ?_))
  · rw [← mixImage_read x0 x1 x2 x3 x4 x5 x6 x7 x8 b h w e]
    refine congrArg₂ (· * ·) (congrArg _ ?_) (congrArg x7 ?_)
    · funext a; match a with | ⟨0, _⟩ => rfl | ⟨1, _⟩ => rfl | ⟨2, _⟩ => rfl | ⟨3, _⟩ => rfl
    · funext a; match a with | ⟨0, _⟩ => rfl | ⟨1, _⟩ => rfl
  · funext a; match a with | ⟨0, _⟩ => rfl

/-- The reference's value is the specification with the normalised mix. -/
theorem ref_eq (x0 : (⟨S4x64x64x256, .f32⟩ : BufTy).Contents (Elt Ideal)) (x1 : (⟨S256x32, .f32⟩ : BufTy).Contents (Elt Ideal)) (x2 : (⟨S32, .f32⟩ : BufTy).Contents (Elt Ideal)) (x3 : (⟨S256x32, .f32⟩ : BufTy).Contents (Elt Ideal)) (x4 : (⟨S32, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) :
    Cert.ReferenceIdeal.Read.val_main_v33 (F := Ideal) x0 x1 x2 x3 x4 x5 x6 x7 x8
      = Cert.Attn.out (Cert.Attn.mixNormalized ⟨x0, x1, x2, x3, x4, x5, x6, x7, x8⟩) ⟨x0, x1, x2, x3, x4, x5, x6, x7, x8⟩ := by
  funext i
  obtain ⟨b, h, w, d, rfl⟩ : ∃ (b : Fin 4) (h w : Fin 64) (d : Fin 256), i = ix4 b h w d := ⟨i 0, i 1, i 2, i 3, eq_ix4 i⟩
  exact out_read x0 x1 x2 x3 x4 x5 x6 x7 x8 b h w d

end Cert.ReferenceIdeal.RefValue

end
-- ==== Proof.FiniteInputs.lean ====
/-
  The finiteness precondition, read back: the precondition tests every argument array `a` by `all (|a| < +∞)` and joins
  the nine tests by `and`.  When the joined bit is 1 every test is 1, every element comparison is 1, and an extended real
  whose absolute value lies strictly below `+∞` is neither `+∞` nor `-∞`: it is a real number.
-/
import proofs.«170908_j2379411882220_2_alg».proof.Pre_finite_inputs
import proofs.«170908_j2379411882220_2_alg».proof.Proof.Gen.Pre_finite_inputs
import proofs.«170908_j2379411882220_2_alg».proof.Proof.AttnSpec
import Idealize.ShloMosaic.Lib.ReduceAll
import Idealize.ShloMosaic.Lib.ValueIdx

noncomputable section

namespace Cert.Pre_finite_inputs.Decode

open Idealize.ShloMosaic Idealize.ShloMosaic.ValueIdx

/-- The scalar shape has exactly one index. -/
instance : Subsingleton S_.Idx := ⟨fun a b => funext fun d => d.elim0⟩

/-- The word `0x7F800000` denotes `+∞`. -/
theorem posInf : Ideal.ofBits .f32 0x7F800000#32 = (⊤ : EReal) := by simp [Ideal.ofBits, Ideal.ieee]

/-- An extended real whose absolute value is strictly below `+∞` is a real number: at `±∞` the absolute value is `+∞`. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [posInf] at h
  induction x using EReal.rec with
  | bot => exact absurd h (by simp [Ideal.cmpf_def, Ideal.cmp, Ideal.absf_def])
  | coe r => exact ⟨r, rfl⟩
  | top => exact absurd h (by simp [Ideal.cmpf_def, Ideal.cmp, Ideal.absf_def])

/-- One test `all (|a| < +∞)` that came out 1: every entry of `a` is a real number. -/
theorem isReal_of_all {s : Shape} {axes : List (Fin s.rank)} (a : FVec Ideal s .f32)
    (hb : S_.BroadcastsInDim s (![] : Fin 0 → Fin s.rank)) (hr : s.ReducesTo axes S_) (hu : 0 < S_.numel) (init : IVec S_ 1)
    (h : Host.reduce IntOp.andi (cmpf .olt (Host.absf a) (broadcastInDim s ![] hb (constant (F := Ideal) S_ .f32 0x7F800000#32))) init hr hu ix0 = 1#1) :
    Cert.Attn.IsReal a := fun i =>
  real_of_abs_lt (a i) (Host.reduce_andi_all _ init hr hu ix0 h i)

/-- The precondition holds: the first five argument arrays (the image batch and the key and query maps) are real. -/
theorem isReal_of_pre [Cert.Pre_finite_inputs.Facts] (x0 : FVec Ideal S4x64x64x256 .f32) (x1 : FVec Ideal S256x32 .f32) (x2 : FVec Ideal S32 .f32) (x3 : FVec Ideal S256x32 .f32) (x4 : FVec Ideal S32 .f32) (x5 : FVec Ideal S256x256 .f32) (x6 : FVec Ideal S256 .f32) (x7 : FVec Ideal S256x256 .f32) (x8 : FVec Ideal S256 .f32)
    (h : Cert.Pre_finite_inputs.fn (F := Ideal) x0 x1 x2 x3 x4 x5 x6 x7 x8 = fun _ => 1#1) :
    Cert.Attn.IsReal x0 ∧ Cert.Attn.IsReal x1 ∧ Cert.Attn.IsReal x2 ∧ Cert.Attn.IsReal x3 ∧ Cert.Attn.IsReal x4 := by
  have h0 := congrFun h ix0
  dsimp only [fn, fn_part1, fn_part2] at h0
  -- the joined bit is a left-nested conjunction of the nine tests: peel the last four, keep the first five
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_all x0 _ _ _ _ e0, isReal_of_all x1 _ _ _ _ e1, isReal_of_all x2 _ _ _ _ e2,
    isReal_of_all x3 _ _ _ _ e3, isReal_of_all x4 _ _ _ _ e4⟩

end Cert.Pre_finite_inputs.Decode

end
-- ==== Proof.lean ====
/-
  A two-kernel self-attention layer against its plain reference, on the extended reals.

  Both programs take an image batch x (4 images, 64 × 64 pixels, 256 channels) and four per-pixel linear maps.  Keys
  f = x·Wf + bf and queries g = x·Wg + bg are 32 wide, values h = x·Wh + bh are 256 wide; over the 4096 pixels of an image
  the score of pixel n against pixel m is ⟨g n, f m⟩, the weight exp (score − row maximum), and the result is
  x + (mix · Wv + bv), the mix being the weighted mean of the values.  The reference divides every weight by the row sum
  before mixing; the kernel mixes with the raw weights and divides the mixed row once.  The two agree because, for
  finite inputs, the row sum is a positive real and a nonnegative real factor distributes over a sum of extended reals
  (`Cert.Attn.out_eq`); a change of float format is the identity there, so the kernel's roundings vanish.

  The kernel side: the first kernel leaves the key array (transposed), the query array and the value array — each the
  per-pixel linear map of the flattened batch, block by block over a 4 × 4 grid —; the second reads 512 query rows and
  the whole keys and values of one image per point of a 4 × 8 grid and leaves the result rows; a last reshape restores
  [4, 64, 64, 256].  The reference side is its run read one operation at a time.  Nothing was rewritten when the kernel
  was idealized, so that conjunct is trivial; the three frames are the generated ones.
-/
import proofs.«170908_j2379411882220_2_alg».proof.Defs
import proofs.«170908_j2379411882220_2_alg».proof.Proof.Gen.Kernel
import proofs.«170908_j2379411882220_2_alg».proof.Proof.Gen.Kernel.Frame
import proofs.«170908_j2379411882220_2_alg».proof.Proof.Gen.KernelIdeal
import proofs.«170908_j2379411882220_2_alg».proof.Proof.Gen.KernelIdeal.Frame
import proofs.«170908_j2379411882220_2_alg».proof.Proof.Gen.ReferenceIdeal
import proofs.«170908_j2379411882220_2_alg».proof.Proof.Gen.Pre_finite_inputs
import proofs.«170908_j2379411882220_2_alg».proof.Proof.Gen.ReferenceIdeal.Run
import proofs.«170908_j2379411882220_2_alg».proof.Proof.Gen.ReferenceIdeal.Read
import proofs.«170908_j2379411882220_2_alg».proof.Proof.AttnSpec
import proofs.«170908_j2379411882220_2_alg».proof.Proof.KernelRun
import proofs.«170908_j2379411882220_2_alg».proof.Proof.KernelValue
import proofs.«170908_j2379411882220_2_alg».proof.Proof.RefIsSpec
import proofs.«170908_j2379411882220_2_alg».proof.Proof.FiniteInputs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the specification's result: the kernel with the division deferred, the reference with the
    weights normalized, one array for finite inputs. -/
theorem algebraic : Cert.algebraic_KernelIdeal_ReferenceIdeal := by
  intro m ρ m' ρ' hpre hagree
  refine ⟨fun c => Cert.Attn.out (Cert.Attn.mixDeferred (Cert.KernelIdeal.Whole.argsOf m c)) (Cert.KernelIdeal.Whole.argsOf m c),
    (θ_run Cert.KernelIdeal.defs _ _).mono (fun r h c => ⟨(h c).1.trans (Cert.KernelIdeal.Whole.result_eq m ρ c), (h c).2⟩)
      (Cert.KernelIdeal.Whole.run_result m ρ), ?_⟩
  refine (θ_run Cert.ReferenceIdeal.defs _ _).mono (fun r h c => ⟨?_, (h c).2⟩)
    (Cert.ReferenceIdeal.Value.run (F := Ideal) m' ρ')
  obtain ⟨a0, a1, a2, a3, a4, a5, a6, a7, a8⟩ := hagree c
  obtain ⟨hX, hWf, hbf, hWg, hbg⟩ := Cert.Pre_finite_inputs.Decode.isReal_of_pre _ _ _ _ _ _ _ _ _ (hpre c)
  rw [(h c).1, Cert.ReferenceIdeal.Read.val_main_v33_eq, Cert.ReferenceIdeal.RefValue.ref_eq, a0, a1, a2, a3, a4, a5, a6, a7, a8]
  exact (Cert.Attn.out_eq (Cert.KernelIdeal.Whole.argsOf m c) hX hWf hbf hWg hbg).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
